-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : IVec S2x1250000 32) (main_arg1 : FVec F S1250000 .f32) (main_arg2 : IVec S1250000 32) (main_arg3 : FVec F S200000x64 .f32) (main_arg4 : FVec F S3x64 .f32) : IVec S_ 1 :=
  let main_v0 : FVec F S1250000 .f32 := Host.absf main_arg1
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  main_v13
-- ==== Kernel.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S1x1250000 : Shape := ⟨2, ![1, 1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S10000x64 : Shape := ⟨2, ![10000, 64]⟩
abbrev S10000x1 : Shape := ⟨2, ![10000, 1]⟩

abbrev nBuf : Space → Nat
  | .hbm => 127
  | .vmem => 18
  | .smem => 0
  | _ => 0

abbrev bufTy : (tb : Table) → Fin (tcTables nBuf tb) → BufTy
  | .hbm, ⟨0, _⟩ => ⟨S2x1250000, .i32⟩
  | .hbm, ⟨1, _⟩ => ⟨S1250000, .f32⟩
  | .hbm, ⟨2, _⟩ => ⟨S1250000, .i32⟩
  | .hbm, ⟨3, _⟩ => ⟨S200000x64, .f32⟩
  | .hbm, ⟨4, _⟩ => ⟨S3x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .f32⟩
  | .hbm, ⟨10, _⟩ => ⟨S1250000, .f32⟩
  | .hbm, ⟨11, _⟩ => ⟨S_, .f32⟩
  | .hbm, ⟨12, _⟩ => ⟨S200000, .f32⟩
  | .hbm, ⟨13, _⟩ => ⟨S1250000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S_, .i32⟩
  | .hbm, ⟨50, _⟩ => ⟨S1250000, .i32⟩
  | .hbm, ⟨51, _⟩ => ⟨S1250000, .i1⟩
  | .hbm, ⟨52, _⟩ => ⟨S_, .i32⟩
  | .hbm, ⟨53, _⟩ => ⟨S1250000, .i32⟩
  | .hbm, ⟨54, _⟩ => ⟨S1250000, .i32⟩
  | .hbm, ⟨55, _⟩ => ⟨S1250000, .i32⟩
  | .hbm, ⟨56, _⟩ => ⟨S1250000x1, .i32⟩
  | .hbm, ⟨57, _⟩ => ⟨S1250000x64, .f32⟩
  | .hbm, ⟨58, _⟩ => ⟨S1250000, .f32⟩
  | .hbm, ⟨59, _⟩ => ⟨S1250000x1, .f32⟩
  | .hbm, ⟨60, _⟩ => ⟨S1250000x1, .f32⟩
  | .hbm, ⟨61, _⟩ => ⟨S1250000x64, .f32⟩
  | .hbm, ⟨62, _⟩ => ⟨S1250000x64, .f32⟩
  | .hbm, ⟨63, _⟩ => ⟨S_, .f32⟩
  | .hbm, ⟨64, _⟩ => ⟨S200000x64, .f32⟩
  | .hbm, ⟨65, _⟩ => ⟨S1250000x1, .i32⟩
  | .hbm, ⟨66, _⟩ => ⟨S200000x64, .f32⟩
  | .hbm, ⟨67, _⟩ => ⟨S_, .f32⟩
  | .hbm, ⟨68, _⟩ => ⟨S200000x64, .f32⟩
  | .hbm, ⟨69, _⟩ => ⟨S200000x64, .f32⟩
  | .hbm, ⟨70, _⟩ => ⟨S_, .i32⟩
  | .hbm, ⟨71, _⟩ => ⟨S1250000, .i32⟩
  | .hbm, ⟨72, _⟩ => ⟨S1250000, .i1⟩
  | .hbm, ⟨73, _⟩ => ⟨S_, .i32⟩
  | .hbm, ⟨74, _⟩ => ⟨S1250000, .i32⟩
  | .hbm, ⟨75, _⟩ => ⟨S1250000, .i32⟩
  | .hbm, ⟨76, _⟩ => ⟨S1250000, .i32⟩
  | .hbm, ⟨77, _⟩ => ⟨S1250000x1, .i32⟩
  | .hbm, ⟨78, _⟩ => ⟨S1250000x64, .f32⟩
  | .hbm, ⟨79, _⟩ => ⟨S1250000x64, .f32⟩
  | .hbm, ⟨80, _⟩ => ⟨S_, .f32⟩
  | .hbm, ⟨81, _⟩ => ⟨S200000x64, .f32⟩
  | .hbm, ⟨82, _⟩ => ⟨S1250000x1, .i32⟩
  | .hbm, ⟨83, _⟩ => ⟨S200000x64, .f32⟩
  | .hbm, ⟨84, _⟩ => ⟨S200000x64, .f32⟩
  | .hbm, ⟨85, _⟩ => ⟨S_, .f32⟩
  | .hbm, ⟨86, _⟩ => ⟨S200000x64, .f32⟩
  | .hbm, ⟨87, _⟩ => ⟨S200000x64, .f32⟩
  | .hbm, ⟨88, _⟩ => ⟨S200000x64, .f32⟩
  | .hbm, ⟨89, _⟩ => ⟨S_, .i32⟩
  | .hbm, ⟨90, _⟩ => ⟨S1250000, .i32⟩
  | .hbm, ⟨91, _⟩ => ⟨S1250000, .i1⟩
  | .hbm, ⟨92, _⟩ => ⟨S_, .i32⟩
  | .hbm, ⟨93, _⟩ => ⟨S1250000, .i32⟩
  | .hbm, ⟨94, _⟩ => ⟨S1250000, .i32⟩
  | .hbm, ⟨95, _⟩ => ⟨S1250000, .i32⟩
  | .hbm, ⟨96, _⟩ => ⟨S1250000x1, .i32⟩
  | .hbm, ⟨97, _⟩ => ⟨S1250000x64, .f32⟩
  | .hbm, ⟨98, _⟩ => ⟨S1250000x64, .f32⟩
  | .hbm, ⟨99, _⟩ => ⟨S_, .f32⟩
  | .hbm, ⟨100, _⟩ => ⟨S200000x64, .f32⟩
  | .hbm, ⟨101, _⟩ => ⟨S1250000x1, .i32⟩
  | .hbm, ⟨102, _⟩ => ⟨S200000x64, .f32⟩
  | .hbm, ⟨103, _⟩ => ⟨S200000x64, .f32⟩
  | .hbm, ⟨104, _⟩ => ⟨S_, .f32⟩
  | .hbm, ⟨105, _⟩ => ⟨S200000x64, .f32⟩
  | .hbm, ⟨106, _⟩ => ⟨S200000x64, .f32⟩
  | .hbm, ⟨107, _⟩ => ⟨S200000x64, .f32⟩
  | .hbm, ⟨108, _⟩ => ⟨S_, .i32⟩
  | .hbm, ⟨109, _⟩ => ⟨S1250000, .i32⟩
  | .hbm, ⟨110, _⟩ => ⟨S1250000, .i1⟩
  | .hbm, ⟨111, _⟩ => ⟨S_, .i32⟩
  | .hbm, ⟨112, _⟩ => ⟨S1250000, .i32⟩
  | .hbm, ⟨113, _⟩ => ⟨S1250000, .i32⟩
  | .hbm, ⟨114, _⟩ => ⟨S1250000, .i32⟩
  | .hbm, ⟨115, _⟩ => ⟨S1250000x1, .i32⟩
  | .hbm, ⟨116, _⟩ => ⟨S1250000x64, .f32⟩
  | .hbm, ⟨117, _⟩ => ⟨S1250000x64, .f32⟩
  | .hbm, ⟨118, _⟩ => ⟨S_, .f32⟩
  | .hbm, ⟨119, _⟩ => ⟨S200000x64, .f32⟩
  | .hbm, ⟨120, _⟩ => ⟨S1250000x1, .i32⟩
  | .hbm, ⟨121, _⟩ => ⟨S200000x64, .f32⟩
  | .hbm, ⟨122, _⟩ => ⟨S200000x64, .f32⟩
  | .hbm, ⟨123, _⟩ => ⟨S_, .f32⟩
  | .hbm, ⟨124, _⟩ => ⟨S200000x64, .f32⟩
  | .hbm, ⟨125, _⟩ => ⟨S200000x64, .f32⟩
  | .hbm, ⟨126, _⟩ => ⟨S200000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_c_12 : Ref sig .tc := ⟨.hbm, 70, rfl⟩
abbrev main_v47 : Ref sig .tc := ⟨.hbm, 71, rfl⟩
abbrev main_v48 : Ref sig .tc := ⟨.hbm, 72, rfl⟩
abbrev main_c_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_16 : Ref sig .tc := ⟨.hbm, 89, rfl⟩
abbrev main_v62 : Ref sig .tc := ⟨.hbm, 90, rfl⟩
abbrev main_v63 : Ref sig .tc := ⟨.hbm, 91, rfl⟩
abbrev main_c_17 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_c_21 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  shapeCasts_S1250000_S1250000x1 : S1250000.ShapeCasts S1250000x1
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S3x64_S1250000x1_S1250000x64_1_0_n_n_0_1_164_wf : GatherDims.WF S3x64 S1250000x1 S1250000x64 [1] [0] [] [0] [] 1 ![1, 64]
  scatter_S200000x64_S1250000x1_S1250000x64_1_0_0_1_wf : ScatterDims.WF S200000x64 S1250000x1 S1250000x64 [1] [0] [0] 1
  gather_S200000x64_S1250000x1_S1250000x64_1_0_n_n_0_1_164_wf : GatherDims.WF S200000x64 S1250000x1 S1250000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1250000x1.size a
  hwx0_1 : ∀ i : grid0.Coords, EltTy.bits .f32 = 32 ∨ (Rect.block (s := S1250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1250000x64.size a
  hwx1_0 : ∀ i : grid1.Coords, EltTy.bits .f32 = 32 ∨ (Rect.block (s := S1250000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1250000x1.size a
  hwx1_1 : ∀ i : grid1.Coords, EltTy.bits .f32 = 32 ∨ (Rect.block (s := S1250000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1250000x64.size a
  hwx1_2 : ∀ i : grid1.Coords, EltTy.bits .f32 = 32 ∨ (Rect.block (s := S1250000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .f32 = 32 ∨ (Rect.block (s := S1250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1250000x1.size a
  hwx2_1 : ∀ i : grid2.Coords, EltTy.bits .f32 = 32 ∨ (Rect.block (s := S1250000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1250000x64.size a
  hwx2_2 : ∀ i : grid2.Coords, EltTy.bits .f32 = 32 ∨ (Rect.block (s := S1250000x64) S10000x64.size (cc2_transform_2 i) (hinb2_2 i)).WholeWords (EltTy.packing .f32)

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S3x64_S1250000x1_S1250000x64_1_0_n_n_0_1_164 : GatherDims S3x64 S1250000x1 S1250000x64 where
  offsetDims := [1]
  collapsedSliceDims := [0]
  operandBatchingDims := []
  startIndicesBatchingDims := []
  startIndexMap := [0]
  indexVectorDim := 1
  sliceSizes := ![1, 64]
  wf := gather_S3x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf

abbrev win0_0 : Pipeline.Window sig grid0 :=
  Pipeline.Window.ofSpec (Memref.whole main_v53) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v68) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v83) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S1x1250000 : Shape := ⟨2, ![1, 1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩

abbrev nBuf : Space → Nat
  | .hbm => 131
  | .vmem => 0
  | .smem => 0
  | _ => 0

abbrev hbmTy0_0 (i : Nat) : BufTy := match i % 128 with
  | 0 => ⟨S2x1250000, .i32⟩
  | 1 => ⟨S1250000, .f32⟩
  | 2 => ⟨S1250000, .i32⟩
  | 3 => ⟨S200000x64, .f32⟩
  | 4 => ⟨S3x64, .f32⟩
  | 5 => ⟨S1x1250000, .i32⟩
  | 6 => ⟨S1250000, .i32⟩
  | 7 => ⟨S1x1250000, .i32⟩
  | 8 => ⟨S1250000, .i32⟩
  | 9 => ⟨S_, .f32⟩
  | 10 => ⟨S1250000, .f32⟩
  | 11 => ⟨S_, .f32⟩
  | 12 => ⟨S200000, .f32⟩
  | 13 => ⟨S1250000x1, .i32⟩
  | 14 => ⟨S200000, .f32⟩
  | 15 => ⟨S_, .f32⟩
  | 16 => ⟨S200000, .f32⟩
  | 17 => ⟨S200000, .i1⟩
  | 18 => ⟨S_, .f32⟩
  | 19 => ⟨S200000, .f32⟩
  | 20 => ⟨S200000, .i1⟩
  | 21 => ⟨S_, .f32⟩
  | 22 => ⟨S_, .f32⟩
  | 23 => ⟨S200000, .f32⟩
  | 24 => ⟨S200000, .f32⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000, .f32⟩
  | 39 => ⟨S_, .i32⟩
  | 40 => ⟨S1250000, .i32⟩
  | 41 => ⟨S1250000, .i1⟩
  | 42 => ⟨S_, .i32⟩
  | 43 => ⟨S1250000, .i32⟩
  | 44 => ⟨S1250000, .i32⟩
  | 45 => ⟨S1250000, .i32⟩
  | 46 => ⟨S1250000x1, .i32⟩
  | 47 => ⟨S1250000, .f32⟩
  | 48 => ⟨S1250000, .f32⟩
  | 49 => ⟨S1250000x1, .f32⟩
  | 50 => ⟨S_, .i32⟩
  | 51 => ⟨S1250000, .i32⟩
  | 52 => ⟨S1250000, .i1⟩
  | 53 => ⟨S_, .i32⟩
  | 54 => ⟨S1250000, .i32⟩
  | 55 => ⟨S1250000, .i32⟩
  | 56 => ⟨S1250000, .i32⟩
  | 57 => ⟨S1250000x1, .i32⟩
  | 58 => ⟨S1250000x64, .f32⟩
  | 59 => ⟨S_, .f32⟩
  | 60 => ⟨S200000x64, .f32⟩
  | 61 => ⟨S200000x64, .f32⟩
  | 62 => ⟨S_, .i32⟩
  | 63 => ⟨S1250000, .i32⟩
  | 64 => ⟨S1250000, .i1⟩
  | 65 => ⟨S_, .i32⟩
  | 66 => ⟨S1250000, .i32⟩
  | 67 => ⟨S1250000, .i32⟩
  | 68 => ⟨S1250000, .i32⟩
  | 69 => ⟨S1250000x1, .i32⟩
  | 70 => ⟨S1250000x64, .f32⟩
  | 71 => ⟨S1250000x1, .f32⟩
  | 72 => ⟨S1250000x64, .f32⟩
  | 73 => ⟨S1250000x64, .f32⟩
  | 74 => ⟨S1250000x64, .f32⟩
  | 75 => ⟨S1250000x64, .f32⟩
  | 76 => ⟨S1250000x64, .f32⟩
  | 77 => ⟨S_, .f32⟩
  | 78 => ⟨S200000x64, .f32⟩
  | 79 => ⟨S1250000x1, .i32⟩
  | 80 => ⟨S200000x64, .f32⟩
  | 81 => ⟨S_, .f32⟩
  | 82 => ⟨S200000x64, .f32⟩
  | 83 => ⟨S200000x64, .f32⟩
  | 84 => ⟨S200000x64, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x64, .f32⟩
  | 94 => ⟨S1250000x1, .f32⟩
  | 95 => ⟨S1250000x64, .f32⟩
  | 96 => ⟨S1250000x64, .f32⟩
  | 97 => ⟨S1250000x64, .f32⟩
  | 98 => ⟨S1250000x64, .f32⟩
  | 99 => ⟨S1250000x64, .f32⟩
  | 100 => ⟨S_, .f32⟩
  | 101 => ⟨S200000x64, .f32⟩
  | 102 => ⟨S1250000x1, .i32⟩
  | 103 => ⟨S200000x64, .f32⟩
  | 104 => ⟨S_, .f32⟩
  | 105 => ⟨S200000x64, .f32⟩
  | 106 => ⟨S200000x64, .f32⟩
  | 107 => ⟨S200000x64, .f32⟩
  | 108 => ⟨S_, .i32⟩
  | 109 => ⟨S1250000, .i32⟩
  | 110 => ⟨S1250000, .i1⟩
  | 111 => ⟨S_, .i32⟩
  | 112 => ⟨S1250000, .i32⟩
  | 113 => ⟨S1250000, .i32⟩
  | 114 => ⟨S1250000, .i32⟩
  | 115 => ⟨S1250000x1, .i32⟩
  | 116 => ⟨S1250000x64, .f32⟩
  | 117 => ⟨S1250000x1, .f32⟩
  | 118 => ⟨S1250000x64, .f32⟩
  | 119 => ⟨S1250000x64, .f32⟩
  | 120 => ⟨S1250000x64, .f32⟩
  | 121 => ⟨S1250000x64, .f32⟩
  | 122 => ⟨S1250000x64, .f32⟩
  | 123 => ⟨S_, .f32⟩
  | 124 => ⟨S200000x64, .f32⟩
  | 125 => ⟨S1250000x1, .i32⟩
  | 126 => ⟨S200000x64, .f32⟩
  | 127 => ⟨S_, .f32⟩
  | _ => ⟨S2x1250000, .i32⟩

abbrev hbmTy0_1 (i : Nat) : BufTy := match i % 128 with
  | 0 => ⟨S200000x64, .f32⟩
  | 1 => ⟨S200000x64, .f32⟩
  | 2 => ⟨S200000x64, .f32⟩
  | _ => ⟨S2x1250000, .i32⟩

abbrev hbmTy (i : Nat) : BufTy := match i / 128 with
  | 0 => hbmTy0_0 i
  | 1 => hbmTy0_1 i
  | _ => ⟨S2x1250000, .i32⟩

abbrev bufTy : (tb : Table) → Fin (tcTables nBuf tb) → BufTy
  | .hbm, ⟨i, _⟩ => hbmTy i
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_c_16 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_19 : Ref sig .tc := ⟨.hbm, 108, rfl⟩
abbrev main_v78 : Ref sig .tc := ⟨.hbm, 109, rfl⟩
abbrev main_v79 : Ref sig .tc := ⟨.hbm, 110, rfl⟩
abbrev main_c_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_22 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  bcast_S_S200000x64 : S_.BroadcastsInDim S200000x64 (![] : Fin 0 → Fin S200000x64.rank)
  bcast_S1250000x1_S1250000x64_0_1 : S1250000x1.BroadcastsInDim S1250000x64 (![0, 1] : Fin 2 → Fin S1250000x64.rank)
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S3x64_S1250000x1_S1250000x64_1_0_n_n_0_1_164_wf : GatherDims.WF S3x64 S1250000x1 S1250000x64 [1] [0] [] [0] [] 1 ![1, 64]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S3x64_S1250000x1_S1250000x64_1_0_n_n_0_1_164 : GatherDims S3x64 S1250000x1 S1250000x64 where
  offsetDims := [1]
  collapsedSliceDims := [0]
  operandBatchingDims := []
  startIndicesBatchingDims := []
  startIndexMap := [0]
  indexVectorDim := 1
  sliceSizes := ![1, 64]
  wf := gather_S3x64_S1250000x1_S1250000x64_1_0_n_n_0_1_164_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf

class Facts : Prop extends Facts₀ where

variable [Facts]
-- ==== Proof.KTerms.lean ====
/-
  The pieces of the graph-convolution computation, named once.

  An edge list gives every edge e a source node row[e] and a destination node col[e] (32-bit words; a negative word
  is wrapped by the number of nodes before it is used as a position to read from; as a position to add into, a word
  outside the node range adds nowhere).  One propagation step sends every node's row of features along its outgoing
  edges, scaled per edge, and adds up what arrives at each node.  The definitions below name the edge-position
  columns, the "add rows at their destinations" and "read rows at their sources" operations, the degree
  normalisation, the per-edge type rows, and the two arrangements of one step; the result of three steps is the
  initial features and the three steps' features, each times one quarter, added.
-/
import proofs.«116709_j50457275794115_2_alg».proof.Proof.Gen.KernelIdeal
import Idealize.ShloMosaic.PureOps.Ideal
import Idealize.ShloMosaic.Lib.ValueIdx

noncomputable section

namespace Cert.KernelIdeal.KV

open Cert.KernelIdeal Cert.KernelIdeal.Gen Idealize.ShloMosaic Idealize.ShloMosaic.ValueIdx

/-- An array over the nodes, 64 features per node. -/
abbrev VN := FVec Ideal S200000x64 .f32
/-- An array over the edges, 64 features per edge. -/
abbrev VE := FVec Ideal S1250000x64 .f32
/-- One number per edge. -/
abbrev V1 := FVec Ideal S1250000 .f32
/-- One 32-bit word per edge. -/
abbrev IE := IVec S1250000 32

/-- The all-zero node array every sum over incoming edges starts from. -/
def zv : VN := broadcastInDim S200000x64 ![] bcast_S_S200000x64 (constant (F := Ideal) S_ .f32 0x00000000#32)
/-- The node array holding one quarter everywhere. -/
def qv : VN := broadcastInDim S200000x64 ![] bcast_S_S200000x64 (constant (F := Ideal) S_ .f32 0x3E800000#32)
/-- A word per edge laid out as a column of positions. -/
def colIdx (v : IE) : IVec S1250000x1 32 := broadcastInDim S1250000x1 ![0] bcast_S1250000_S1250000x1_0 v
/-- A negative word wrapped by `k`. -/
def wrapBy (k : BitVec 32) (v : IE) : IE :=
  select (cmpi .slt v (broadcastInDim S1250000 ![] bcast_S_S1250000 (constantI S_ 32 0#32)))
    (addi v (broadcastInDim S1250000 ![] bcast_S_S1250000 (constantI S_ 32 k))) v
/-- The column of node positions to READ at: negative words wrapped by the number of nodes. -/
def rowIdx (v : IE) : IVec S1250000x1 32 := colIdx (wrapBy 200000#32 v)
/-- Add the edge rows `u` into the node rows named by `cv`, from zero. -/
def SC (cv : IE) (u : VE) : VN :=
  Host.scatterAdd (F := Ideal) (φ := .f32) scatter_S200000x64_S1250000x1_S1250000x64_1_0_0_1 zv (colIdx cv) u
/-- Read the node rows of `h` named by `rv`, one per edge. -/
def GA (rv : IE) (h : VN) : VE :=
  Host.gather gather_S200000x64_S1250000x1_S1250000x64_1_0_n_n_0_1_164 h (rowIdx rv)
/-- One number per edge laid out as a column. -/
def bc1 (n : V1) : FVec Ideal S1250000x1 .f32 := broadcastInDim S1250000x1 ![0] bcast_S1250000_S1250000x1_0 n
/-- A column over the edges repeated over the 64 features. -/
def bcE (n : FVec Ideal S1250000x1 .f32) : VE := broadcastInDim S1250000x64 ![0, 1] bcast_S1250000x1_S1250000x64_0_1 n
/-- The per-edge normalisation: the degree factor of the source node times that of the destination node. -/
def NRM (d : FVec Ideal S200000 .f32) (rv cv : IE) : V1 :=
  mulf (Host.gather gather_S200000_S1250000x1_S1250000_n_0_n_n_0_1_1 d (rowIdx rv))
    (Host.gather gather_S200000_S1250000x1_S1250000_n_0_n_n_0_1_1 d (rowIdx cv))
/-- The per-edge type rows: row `ty[e]` (a negative word wrapped by 3) of the three type rows. -/
def TE (a4 : FVec Ideal S3x64 .f32) (ty : IE) : VE :=
  Host.gather gather_S3x64_S1250000x1_S1250000x64_1_0_n_n_0_1_164 a4 (colIdx (wrapBy 3#32 ty))
/-- The source-node words: row 0 of the edge list. -/
def ROW (a0 : IVec S2x1250000 32) : IE :=
  shapeCast S1250000 (extractStridedSlice S1x1250000 ![0, 0] a0 slices_S2x1250000_S1x1250000_0_0) shapeCasts_S1x1250000_S1250000
/-- The destination-node words: row 1 of the edge list. -/
def COL (a0 : IVec S2x1250000 32) : IE :=
  shapeCast S1250000 (extractStridedSlice S1x1250000 ![1, 0] a0 slices_S2x1250000_S1x1250000_1_0) shapeCasts_S1x1250000_S1250000

/-- The all-zero and the all-one array over the nodes. -/
def z1 : FVec Ideal S200000 .f32 := broadcastInDim S200000 ![] bcast_S_S200000 (constant (F := Ideal) S_ .f32 0x00000000#32)
def o1 : FVec Ideal S200000 .f32 := broadcastInDim S200000 ![] bcast_S_S200000 (constant (F := Ideal) S_ .f32 0x3F800000#32)
/-- The out-degree: one added at its source node for every edge, from zero. -/
def DEG (rv : IE) : FVec Ideal S200000 .f32 :=
  Host.scatterAdd (F := Ideal) (φ := .f32) scatter_S200000_S1250000x1_S1250000_n_0_0_1 z1 (colIdx rv)
    (broadcastInDim S1250000 ![] bcast_S_S1250000 (constant (F := Ideal) S_ .f32 0x3F800000#32))
/-- The degree factor: the reciprocal square root of a positive degree, zero elsewhere. -/
def DINV (rv : IE) : FVec Ideal S200000 .f32 :=
  select (cmpf .ogt (DEG rv) z1) (Host.rsqrt (F := Ideal) (select (cmpf .ogt (DEG rv) z1) (DEG rv) o1)) z1

/-- The result: the initial features and three steps' features, each times one quarter, added. -/
def out3 (step : VN → VN) (a3 : VN) : VN :=
  addf (addf (addf (mulf a3 qv) (mulf (step a3) qv)) (mulf (step (step a3)) qv)) (mulf (step (step (step a3))) qv)

/-- One step as the reference arranges it: (h[row] · w + t) · nrm, added at the destinations. -/
def stepR (rv cv : IE) (w2 t n2 : VE) (h : VN) : VN := SC cv (mulf (addf (mulf (GA rv h) w2) t) n2)

end Cert.KernelIdeal.KV

end
-- ==== Proof.KStages.lean ====
/-
  What each stretch of host operations of the kernel's program leaves in the buffers the computation goes on to
  read, as a function of the buffer contents the stretch starts from (an arbitrary valuation `W`).
-/
import proofs.«116709_j50457275794115_2_alg».proof.Proof.Gen.KernelIdeal.Launch
import proofs.«116709_j50457275794115_2_alg».proof.Proof.KTerms
import Idealize.ShloMosaic.Lib.StableHlo.Run

noncomputable section

namespace Cert.KernelIdeal.KV

open Cert.KernelIdeal Cert.KernelIdeal.Gen Idealize.ShloMosaic Idealize.ShloMosaic.TcCoe Idealize.SL.Sem Idealize.ShloMosaic.StableHlo

variable (W : Valuation τ sig (Elt Ideal))

/-! ## Before the first region: the edge words, the degree factor -/

/-- The contents after the four stretches that compute the degree factor. -/
abbrev pre (W : Valuation τ sig (Elt Ideal)) : Valuation τ sig (Elt Ideal) :=
  StableHlo.after (hostOps0_3 (F := Ideal)) (StableHlo.after (hostOps0_2 (F := Ideal)) (StableHlo.after (hostOps0_1 (F := Ideal)) (StableHlo.after (hostOps0 (F := Ideal)) W)))

/-! ### Stretch by stretch -/

theorem p0_v1 : (StableHlo.after (hostOps0 (F := Ideal)) W (Proc.devRef .tc main_v1) : IE) = ROW (W (Proc.devRef .tc main_arg0)) := by
  after_results_simp <;> rfl
theorem p0_v3 : (StableHlo.after (hostOps0 (F := Ideal)) W (Proc.devRef .tc main_v3) : IE) = COL (W (Proc.devRef .tc main_arg0)) := by
  after_results_simp <;> rfl
theorem p0_v7 : (StableHlo.after (hostOps0 (F := Ideal)) W (Proc.devRef .tc main_v7) : FVec Ideal S200000 .f32) = DEG (ROW (W (Proc.devRef .tc main_arg0))) := by
  after_results_simp <;> rfl
theorem p0_v9 : (StableHlo.after (hostOps0 (F := Ideal)) W (Proc.devRef .tc main_v9) : IVec S200000 1) = cmpf .ogt (DEG (ROW (W (Proc.devRef .tc main_arg0)))) z1 := by
  after_results_simp <;> rfl
theorem p0_v11 : (StableHlo.after (hostOps0 (F := Ideal)) W (Proc.devRef .tc main_v11) : IVec S200000 1) = cmpf .ogt (DEG (ROW (W (Proc.devRef .tc main_arg0)))) z1 := by
  after_results_simp <;> rfl
theorem p0_cst_3 : (StableHlo.after (hostOps0 (F := Ideal)) W (Proc.devRef .tc main_cst_3) : FVec Ideal S_ .f32) = constant (F := Ideal) S_ .f32 0x3F800000#32 := by
  after_results_simp <;> rfl
theorem p0_arg1 : StableHlo.after (hostOps0 (F := Ideal)) W (Proc.devRef .tc main_arg1) = (W (Proc.devRef .tc main_arg1)) := by after_results_simp
theorem p0_arg2 : StableHlo.after (hostOps0 (F := Ideal)) W (Proc.devRef .tc main_arg2) = (W (Proc.devRef .tc main_arg2)) := by after_results_simp
theorem p0_arg3 : StableHlo.after (hostOps0 (F := Ideal)) W (Proc.devRef .tc main_arg3) = (W (Proc.devRef .tc main_arg3)) := by after_results_simp
theorem p0_arg4 : StableHlo.after (hostOps0 (F := Ideal)) W (Proc.devRef .tc main_arg4) = (W (Proc.devRef .tc main_arg4)) := by after_results_simp

theorem p1_v12 : (StableHlo.after (hostOps0_1 (F := Ideal)) W (Proc.devRef .tc main_v12) : FVec Ideal S200000 .f32)
    = select (W (Proc.devRef .tc main_v11)) (W (Proc.devRef .tc main_v7)) (broadcastInDim S200000 ![] Cert.KernelIdeal.Gen.bcast_S_S200000 (W (Proc.devRef .tc main_cst_3))) := by
  after_results_simp <;> rfl
theorem p1_v1 : StableHlo.after (hostOps0_1 (F := Ideal)) W (Proc.devRef .tc main_v1) = (W (Proc.devRef .tc main_v1)) := by after_results_simp
theorem p1_v3 : StableHlo.after (hostOps0_1 (F := Ideal)) W (Proc.devRef .tc main_v3) = (W (Proc.devRef .tc main_v3)) := by after_results_simp
theorem p1_v9 : StableHlo.after (hostOps0_1 (F := Ideal)) W (Proc.devRef .tc main_v9) = (W (Proc.devRef .tc main_v9)) := by after_results_simp
theorem p1_arg1 : StableHlo.after (hostOps0_1 (F := Ideal)) W (Proc.devRef .tc main_arg1) = (W (Proc.devRef .tc main_arg1)) := by after_results_simp
theorem p1_arg2 : StableHlo.after (hostOps0_1 (F := Ideal)) W (Proc.devRef .tc main_arg2) = (W (Proc.devRef .tc main_arg2)) := by after_results_simp
theorem p1_arg3 : StableHlo.after (hostOps0_1 (F := Ideal)) W (Proc.devRef .tc main_arg3) = (W (Proc.devRef .tc main_arg3)) := by after_results_simp
theorem p1_arg4 : StableHlo.after (hostOps0_1 (F := Ideal)) W (Proc.devRef .tc main_arg4) = (W (Proc.devRef .tc main_arg4)) := by after_results_simp

theorem p2_v13 : (StableHlo.after (hostOps0_2 (F := Ideal)) W (Proc.devRef .tc main_v13) : FVec Ideal S200000 .f32) = Host.rsqrt (F := Ideal) (φ := .f32) (W (Proc.devRef .tc main_v12)) := by
  after_results_simp <;> rfl
theorem p2_cst_4 : (StableHlo.after (hostOps0_2 (F := Ideal)) W (Proc.devRef .tc main_cst_4) : FVec Ideal S_ .f32) = constant (F := Ideal) S_ .f32 0x00000000#32 := by
  after_results_simp <;> rfl
theorem p2_v1 : StableHlo.after (hostOps0_2 (F := Ideal)) W (Proc.devRef .tc main_v1) = (W (Proc.devRef .tc main_v1)) := by after_results_simp
theorem p2_v3 : StableHlo.after (hostOps0_2 (F := Ideal)) W (Proc.devRef .tc main_v3) = (W (Proc.devRef .tc main_v3)) := by after_results_simp
theorem p2_v9 : StableHlo.after (hostOps0_2 (F := Ideal)) W (Proc.devRef .tc main_v9) = (W (Proc.devRef .tc main_v9)) := by after_results_simp
theorem p2_arg1 : StableHlo.after (hostOps0_2 (F := Ideal)) W (Proc.devRef .tc main_arg1) = (W (Proc.devRef .tc main_arg1)) := by after_results_simp
theorem p2_arg2 : StableHlo.after (hostOps0_2 (F := Ideal)) W (Proc.devRef .tc main_arg2) = (W (Proc.devRef .tc main_arg2)) := by after_results_simp
theorem p2_arg3 : StableHlo.after (hostOps0_2 (F := Ideal)) W (Proc.devRef .tc main_arg3) = (W (Proc.devRef .tc main_arg3)) := by after_results_simp
theorem p2_arg4 : StableHlo.after (hostOps0_2 (F := Ideal)) W (Proc.devRef .tc main_arg4) = (W (Proc.devRef .tc main_arg4)) := by after_results_simp

theorem p3_v14 : (StableHlo.after (hostOps0_3 (F := Ideal)) W (Proc.devRef .tc main_v14) : FVec Ideal S200000 .f32)
    = select (W (Proc.devRef .tc main_v9)) (W (Proc.devRef .tc main_v13)) (broadcastInDim S200000 ![] Cert.KernelIdeal.Gen.bcast_S_S200000 (W (Proc.devRef .tc main_cst_4))) := by
  after_results_simp <;> rfl
theorem p3_v1 : StableHlo.after (hostOps0_3 (F := Ideal)) W (Proc.devRef .tc main_v1) = (W (Proc.devRef .tc main_v1)) := by after_results_simp
theorem p3_v3 : StableHlo.after (hostOps0_3 (F := Ideal)) W (Proc.devRef .tc main_v3) = (W (Proc.devRef .tc main_v3)) := by after_results_simp
theorem p3_arg1 : StableHlo.after (hostOps0_3 (F := Ideal)) W (Proc.devRef .tc main_arg1) = (W (Proc.devRef .tc main_arg1)) := by after_results_simp
theorem p3_arg2 : StableHlo.after (hostOps0_3 (F := Ideal)) W (Proc.devRef .tc main_arg2) = (W (Proc.devRef .tc main_arg2)) := by after_results_simp
theorem p3_arg3 : StableHlo.after (hostOps0_3 (F := Ideal)) W (Proc.devRef .tc main_arg3) = (W (Proc.devRef .tc main_arg3)) := by after_results_simp
theorem p3_arg4 : StableHlo.after (hostOps0_3 (F := Ideal)) W (Proc.devRef .tc main_arg4) = (W (Proc.devRef .tc main_arg4)) := by after_results_simp

/-! ### The four stretches together -/

theorem pre_v1 : (pre W (Proc.devRef .tc main_v1) : IE) = ROW (W (Proc.devRef .tc main_arg0)) := by
  unfold pre
  rw [p3_v1, p2_v1, p1_v1, p0_v1]
theorem pre_v3 : (pre W (Proc.devRef .tc main_v3) : IE) = COL (W (Proc.devRef .tc main_arg0)) := by
  unfold pre
  rw [p3_v3, p2_v3, p1_v3, p0_v3]
theorem pre_v14 : (pre W (Proc.devRef .tc main_v14) : FVec Ideal S200000 .f32) = DINV (ROW (W (Proc.devRef .tc main_arg0))) := by
  unfold pre
  rw [p3_v14, p2_v9, p2_v13, p2_cst_4, p1_v9, p1_v12, p0_v9, p0_v11, p0_v7, p0_cst_3]
  rfl
theorem pre_arg1 : pre W (Proc.devRef .tc main_arg1) = (W (Proc.devRef .tc main_arg1)) := by
  unfold pre
  rw [p3_arg1, p2_arg1, p1_arg1, p0_arg1]
theorem pre_arg2 : pre W (Proc.devRef .tc main_arg2) = (W (Proc.devRef .tc main_arg2)) := by
  unfold pre
  rw [p3_arg2, p2_arg2, p1_arg2, p0_arg2]
theorem pre_arg3 : pre W (Proc.devRef .tc main_arg3) = (W (Proc.devRef .tc main_arg3)) := by
  unfold pre
  rw [p3_arg3, p2_arg3, p1_arg3, p0_arg3]
theorem pre_arg4 : pre W (Proc.devRef .tc main_arg4) = (W (Proc.devRef .tc main_arg4)) := by
  unfold pre
  rw [p3_arg4, p2_arg4, p1_arg4, p0_arg4]

/-! ## The stretch up to the first region -/

theorem s4_v38 : (StableHlo.after (hostOps0_4 (F := Ideal)) W (Proc.devRef .tc main_v38) : FVec Ideal S1250000x1 .f32)
    = shapeCast S1250000x1 (mulf (W (Proc.devRef .tc main_arg1)) (NRM (W (Proc.devRef .tc main_v14)) (W (Proc.devRef .tc main_v1)) (W (Proc.devRef .tc main_v3)))) shapeCasts_S1250000_S1250000x1 := by
  after_results_simp; rfl
theorem s4_v44 : (StableHlo.after (hostOps0_4 (F := Ideal)) W (Proc.devRef .tc main_v44) : VN)
    = SC (W (Proc.devRef .tc main_v3)) (mulf (TE (W (Proc.devRef .tc main_arg4)) (W (Proc.devRef .tc main_arg2))) (bcE (bc1 (NRM (W (Proc.devRef .tc main_v14)) (W (Proc.devRef .tc main_v1)) (W (Proc.devRef .tc main_v3)))))) := by
  after_results_simp; rfl
theorem s4_v53 : (StableHlo.after (hostOps0_4 (F := Ideal)) W (Proc.devRef .tc main_v53) : VE) = GA (W (Proc.devRef .tc main_v1)) (W (Proc.devRef .tc main_arg3)) := by
  after_results_simp; rfl
theorem s4_v46 : (StableHlo.after (hostOps0_4 (F := Ideal)) W (Proc.devRef .tc main_v46) : VN) = mulf (W (Proc.devRef .tc main_arg3)) qv := by
  after_results_simp; rfl
theorem s4_v1 : StableHlo.after (hostOps0_4 (F := Ideal)) W (Proc.devRef .tc main_v1) = (W (Proc.devRef .tc main_v1)) := by after_results_simp
theorem s4_v3 : StableHlo.after (hostOps0_4 (F := Ideal)) W (Proc.devRef .tc main_v3) = (W (Proc.devRef .tc main_v3)) := by after_results_simp

/-! ## Between the regions, and after the last -/

theorem s1_v68 : (StableHlo.after (hostOps1 (F := Ideal)) W (Proc.devRef .tc main_v68) : VE)
    = GA (W (Proc.devRef .tc main_v1)) (addf (SC (W (Proc.devRef .tc main_v3)) (W (Proc.devRef .tc main_v54))) (W (Proc.devRef .tc main_v44))) := by
  after_results_simp; rfl
theorem s1_v61 : (StableHlo.after (hostOps1 (F := Ideal)) W (Proc.devRef .tc main_v61) : VN)
    = addf (W (Proc.devRef .tc main_v46)) (mulf (addf (SC (W (Proc.devRef .tc main_v3)) (W (Proc.devRef .tc main_v54))) (W (Proc.devRef .tc main_v44))) qv) := by
  after_results_simp; rfl
theorem s1_v38 : StableHlo.after (hostOps1 (F := Ideal)) W (Proc.devRef .tc main_v38) = (W (Proc.devRef .tc main_v38)) := by after_results
theorem s1_v44 : StableHlo.after (hostOps1 (F := Ideal)) W (Proc.devRef .tc main_v44) = (W (Proc.devRef .tc main_v44)) := by after_results
theorem s1_v1 : StableHlo.after (hostOps1 (F := Ideal)) W (Proc.devRef .tc main_v1) = (W (Proc.devRef .tc main_v1)) := by after_results
theorem s1_v3 : StableHlo.after (hostOps1 (F := Ideal)) W (Proc.devRef .tc main_v3) = (W (Proc.devRef .tc main_v3)) := by after_results

theorem s2_v83 : (StableHlo.after (hostOps2 (F := Ideal)) W (Proc.devRef .tc main_v83) : VE)
    = GA (W (Proc.devRef .tc main_v1)) (addf (SC (W (Proc.devRef .tc main_v3)) (W (Proc.devRef .tc main_v69))) (W (Proc.devRef .tc main_v44))) := by
  after_results_simp; rfl
theorem s2_v76 : (StableHlo.after (hostOps2 (F := Ideal)) W (Proc.devRef .tc main_v76) : VN)
    = addf (W (Proc.devRef .tc main_v61)) (mulf (addf (SC (W (Proc.devRef .tc main_v3)) (W (Proc.devRef .tc main_v69))) (W (Proc.devRef .tc main_v44))) qv) := by
  after_results_simp; rfl
theorem s2_v38 : StableHlo.after (hostOps2 (F := Ideal)) W (Proc.devRef .tc main_v38) = (W (Proc.devRef .tc main_v38)) := by after_results
theorem s2_v44 : StableHlo.after (hostOps2 (F := Ideal)) W (Proc.devRef .tc main_v44) = (W (Proc.devRef .tc main_v44)) := by after_results
theorem s2_v3 : StableHlo.after (hostOps2 (F := Ideal)) W (Proc.devRef .tc main_v3) = (W (Proc.devRef .tc main_v3)) := by after_results

theorem s3_v91 : (StableHlo.after (hostOps3 (F := Ideal)) W (Proc.devRef .tc main_v91) : VN)
    = addf (W (Proc.devRef .tc main_v76)) (mulf (addf (SC (W (Proc.devRef .tc main_v3)) (W (Proc.devRef .tc main_v84))) (W (Proc.devRef .tc main_v44))) qv) := by
  after_results_simp; rfl

end Cert.KernelIdeal.KV

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KRegion.lean ====
import proofs.«116709_j50457275794115_2_alg».proof.Proof.Gen.KernelIdeal.Frame
import proofs.«116709_j50457275794115_2_alg».proof.Proof.LibColumn
import Idealize.ShloMosaic.Lib.Pipeline.Value
import Idealize.ShloMosaic.Lib.ValueIdx
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

/-!
  The value of each of the kernel's three scaling regions, as one whole-array function of the arrays the region reads.

  Each region walks a grid of 125 points; at point t it reads block t (10000 rows) of an [1250000, 64] array and of an
  [1250000, 1] column, multiplies each row of the first by the column's entry at that row, and writes the product back to
  block t of the output array. The 125 blocks tile the array, so the output ends holding the row-scaled array.
-/

/-- Each row of an [E, 64] array scaled by that row's entry of an [E, 1] column: the message h[row e, :] · a[e]. -/
def scaleRows (x : FVec Ideal S1250000x64 .f32) (a : FVec Ideal S1250000x1 .f32) : FVec Ideal S1250000x64 .f32 :=
  fun i => x i * a (ix2 (i 0) (0 : Fin 1))

/-- The scaled array at row `e`, feature `f`. -/
theorem scaleRows_apply (x : FVec Ideal S1250000x64 .f32) (a : FVec Ideal S1250000x1 .f32) (e : Fin 1250000) (f : Fin 64) :
    scaleRows x a (ix2 e f) = x (ix2 e f) * a (ix2 e (0 : Fin 1)) := rfl

/-- The zero offset of a whole-block access. -/
theorem hz : (![0, 0] : Fin 2 → Nat) = fun _ => 0 := funext fun a => by fin_cases a <;> rfl

variable (V : (c : Dev nD) → (b : Ref sig .tc) → Buf (Elt Ideal) ((c : Thread nD τ).loc b))

/-! ## Region 0 -/

/-- The body's value on a block: entry (p, q) of the first block times the column block's entry at row p. -/
theorem pay0_apply (x0 : Vec Ideal S10000x64 .f32) (x1 : Vec Ideal S10000x1 .f32) (p : Fin 10000) (q : Fin 64) :
    k0_pay1 x0 x1 (ix2 p q) = x0 (ix2 p q) * x1 (ix2 p (0 : Fin 1)) := by
  unfold k0_pay1
  rw [ValueIdx.mulf_apply, shapeCast_self, shapeCast_self, Cert.LibColumn.broadcastTo_a1_ab_apply]

/-- The three index maps at grid point t: block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- At grid point t the two input blocks sit where the output block does: the product of their entries at (p, q) and
    (p, 0) is the row-scaled array at the output block's entry (p, q). -/
theorem blk0_eq (X : FVec Ideal S1250000x64 .f32) (A : FVec Ideal S1250000x1 .f32) (t : Fin cfg0.N) (p : Fin 10000) (q : Fin 64) :
    X (((cfg0.win 0).blk t).view.emb (ix2 p q)) * A (((cfg0.win 1).blk t).view.emb (ix2 p (0 : Fin 1)))
      = scaleRows X A (((cfg0.win 2).blk t).view.emb (ix2 p q)) := by
  obtain ⟨e0, e1, e2, e3, e4, e5⟩ := idx_facts0 t
  have hp : p.val < 10000 := p.isLt
  have hq : q.val < 64 := q.isLt
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1))
      = ix2 ((((cfg0.win 2).blk t).view.emb (ix2 p q)) 0) (0 : Fin 1) := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]
  rfl

/-- An index of the array is in point t's block iff each coordinate is in the block's range on its axis. -/
theorem mem_blk0 (t : Fin cfg0.N) (i : S1250000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v54).slice (win0_2.rect t)).set ↔ _
  rw [View.set_slice_whole, Rect.mem_set_unit]
  exact Iff.rfl

/-- The 125 blocks of 10000 rows tile the array: every index is in the block of its row's quotient by 10000. -/
theorem cover0 (i : S1250000x64.Idx) :
    ∃ t : Fin cfg0.N, (cfg0.win 2).flush t = true ∧ i ∈ ((cfg0.win 2).blk t).view.set := by
  have hi0 : (i 0).val < 1250000 := (i 0).isLt
  have hi1 : (i 1).val < 64 := (i 1).isLt
  have hN : cfg0.N = 125 := N_0
  let t : Fin cfg0.N := ⟨(i 0).val / 10000, by rw [hN]; omega⟩
  have ht : t.val = (i 0).val / 10000 := rfl
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- What grid point t writes back is block t of the row-scaled array. -/
theorem flushed0 (c : Dev nD) (t : Fin cfg0.N) :
    (dat0 V c).flushed 2 t = ((cfg0.win 2).blk t).view.read (Elt Ideal) (scaleRows (V c main_v53) (V c main_v38)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  funext j
  obtain ⟨p, q, rfl⟩ : ∃ (p : Fin 10000) (q : Fin 64), j = ix2 p q := ⟨j 0, j 1, eq_ix2 j⟩
  refine (pay0_apply _ _ p q).trans ?_
  exact blk0_eq (V c main_v53) (V c main_v38) t p q

/-- Region 0 leaves its output array holding the per-edge rows its first input array holds, each row scaled by its edge weight. -/
theorem region0_value (c : Dev nD) : (dat0 V c).arrAt 2 cfg0.N = scaleRows (V c main_v53) (V c main_v38) :=
  (dat0 V c).arrAt_eq_of_cover 2 _ (fun t _ => flushed0 V c t) cover0

/-! ## Region 1 -/

/-- The body's value on a block: entry (p, q) of the first block times the column block's entry at row p. -/
theorem pay1_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  rw [ValueIdx.mulf_apply, shapeCast_self, shapeCast_self, Cert.LibColumn.broadcastTo_a1_ab_apply]

/-- The three index maps at grid point t: block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- At grid point t the two input blocks sit where the output block does: the product of their entries at (p, q) and
    (p, 0) is the row-scaled array at the output block's entry (p, q). -/
theorem blk1_eq (X : FVec Ideal S1250000x64 .f32) (A : FVec Ideal S1250000x1 .f32) (t : Fin cfg1.N) (p : Fin 10000) (q : Fin 64) :
    X (((cfg1.win 0).blk t).view.emb (ix2 p q)) * A (((cfg1.win 1).blk t).view.emb (ix2 p (0 : Fin 1)))
      = scaleRows X A (((cfg1.win 2).blk t).view.emb (ix2 p q)) := by
  obtain ⟨e0, e1, e2, e3, e4, e5⟩ := idx_facts1 t
  have hp : p.val < 10000 := p.isLt
  have hq : q.val < 64 := q.isLt
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1))
      = ix2 ((((cfg1.win 2).blk t).view.emb (ix2 p q)) 0) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  rw [h0, h1]
  rfl

/-- An index of the array is in point t's block iff each coordinate is in the block's range on its axis. -/
theorem mem_blk1 (t : Fin cfg1.N) (i : S1250000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v69).slice (win1_2.rect t)).set ↔ _
  rw [View.set_slice_whole, Rect.mem_set_unit]
  exact Iff.rfl

/-- The 125 blocks of 10000 rows tile the array: every index is in the block of its row's quotient by 10000. -/
theorem cover1 (i : S1250000x64.Idx) :
    ∃ t : Fin cfg1.N, (cfg1.win 2).flush t = true ∧ i ∈ ((cfg1.win 2).blk t).view.set := by
  have hi0 : (i 0).val < 1250000 := (i 0).isLt
  have hi1 : (i 1).val < 64 := (i 1).isLt
  have hN : cfg1.N = 125 := N_1
  let t : Fin cfg1.N := ⟨(i 0).val / 10000, by rw [hN]; omega⟩
  have ht : t.val = (i 0).val / 10000 := rfl
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- What grid point t writes back is block t of the row-scaled array. -/
theorem flushed1 (c : Dev nD) (t : Fin cfg1.N) :
    (dat1 V c).flushed 2 t = ((cfg1.win 2).blk t).view.read (Elt Ideal) (scaleRows (V c main_v68) (V c main_v38)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  funext j
  obtain ⟨p, q, rfl⟩ : ∃ (p : Fin 10000) (q : Fin 64), j = ix2 p q := ⟨j 0, j 1, eq_ix2 j⟩
  refine (pay1_apply _ _ p q).trans ?_
  exact blk1_eq (V c main_v68) (V c main_v38) t p q

/-- Region 1 leaves its output array holding the per-edge rows its first input array holds, each row scaled by its edge weight. -/
theorem region1_value (c : Dev nD) : (dat1 V c).arrAt 2 cfg1.N = scaleRows (V c main_v68) (V c main_v38) :=
  (dat1 V c).arrAt_eq_of_cover 2 _ (fun t _ => flushed1 V c t) cover1

/-! ## Region 2 -/

/-- The body's value on a block: entry (p, q) of the first block times the column block's entry at row p. -/
theorem pay2_apply (x0 : Vec Ideal S10000x64 .f32) (x1 : Vec Ideal S10000x1 .f32) (p : Fin 10000) (q : Fin 64) :
    k2_pay1 x0 x1 (ix2 p q) = x0 (ix2 p q) * x1 (ix2 p (0 : Fin 1)) := by
  unfold k2_pay1
  rw [ValueIdx.mulf_apply, shapeCast_self, shapeCast_self, Cert.LibColumn.broadcastTo_a1_ab_apply]

/-- The three index maps at grid point t: block row t, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- At grid point t the two input blocks sit where the output block does: the product of their entries at (p, q) and
    (p, 0) is the row-scaled array at the output block's entry (p, q). -/
theorem blk2_eq (X : FVec Ideal S1250000x64 .f32) (A : FVec Ideal S1250000x1 .f32) (t : Fin cfg2.N) (p : Fin 10000) (q : Fin 64) :
    X (((cfg2.win 0).blk t).view.emb (ix2 p q)) * A (((cfg2.win 1).blk t).view.emb (ix2 p (0 : Fin 1)))
      = scaleRows X A (((cfg2.win 2).blk t).view.emb (ix2 p q)) := by
  obtain ⟨e0, e1, e2, e3, e4, e5⟩ := idx_facts2 t
  have hp : p.val < 10000 := p.isLt
  have hq : q.val < 64 := q.isLt
  have h0 : ((cfg2.win 0).blk t).view.emb (ix2 p q) = ((cfg2.win 2).blk t).view.emb (ix2 p q) := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * q.val = win2_2.index t (1 : Fin 2) * 64 + 1 * q.val; omega
  have h1 : ((cfg2.win 1).blk t).view.emb (ix2 p (0 : Fin 1))
      = ix2 ((((cfg2.win 2).blk t).view.emb (ix2 p q)) 0) (0 : Fin 1) := by
    funext a; apply Fin.ext
    match a with
    | ⟨0, _⟩ => show win2_1.index t (0 : Fin 2) * 10000 + 1 * p.val = win2_2.index t (0 : Fin 2) * 10000 + 1 * p.val; omega
    | ⟨1, _⟩ => show win2_1.index t (1 : Fin 2) * 1 + 1 * 0 = 0; omega
  rw [h0, h1]
  rfl

/-- An index of the array is in point t's block iff each coordinate is in the block's range on its axis. -/
theorem mem_blk2 (t : Fin cfg2.N) (i : S1250000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v84).slice (win2_2.rect t)).set ↔ _
  rw [View.set_slice_whole, Rect.mem_set_unit]
  exact Iff.rfl

/-- The 125 blocks of 10000 rows tile the array: every index is in the block of its row's quotient by 10000. -/
theorem cover2 (i : S1250000x64.Idx) :
    ∃ t : Fin cfg2.N, (cfg2.win 2).flush t = true ∧ i ∈ ((cfg2.win 2).blk t).view.set := by
  have hi0 : (i 0).val < 1250000 := (i 0).isLt
  have hi1 : (i 1).val < 64 := (i 1).isLt
  have hN : cfg2.N = 125 := N_2
  let t : Fin cfg2.N := ⟨(i 0).val / 10000, by rw [hN]; omega⟩
  have ht : t.val = (i 0).val / 10000 := rfl
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- What grid point t writes back is block t of the row-scaled array. -/
theorem flushed2 (c : Dev nD) (t : Fin cfg2.N) :
    (dat2 V c).flushed 2 t = ((cfg2.win 2).blk t).view.read (Elt Ideal) (scaleRows (V c main_v83) (V c main_v38)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  funext j
  obtain ⟨p, q, rfl⟩ : ∃ (p : Fin 10000) (q : Fin 64), j = ix2 p q := ⟨j 0, j 1, eq_ix2 j⟩
  refine (pay2_apply _ _ p q).trans ?_
  exact blk2_eq (V c main_v83) (V c main_v38) t p q

/-- Region 2 leaves its output array holding the per-edge rows its first input array holds, each row scaled by its edge weight. -/
theorem region2_value (c : Dev nD) : (dat2 V c).arrAt 2 cfg2.N = scaleRows (V c main_v83) (V c main_v38) :=
  (dat2 V c).arrAt_eq_of_cover 2 _ (fun t _ => flushed2 V c t) cover2

end Cert.KernelIdeal.RegionValue

end
-- ==== Proof.KStep.lean ====
/-
  One propagation step as the kernel arranges it: each gathered source row times its edge's coefficient, the
  products added at the destination nodes, plus the (step-independent) type term.
-/
import proofs.«116709_j50457275794115_2_alg».proof.Proof.KTerms
import proofs.«116709_j50457275794115_2_alg».proof.Proof.KRegion

noncomputable section

namespace Cert.KernelIdeal.KV

open Cert.KernelIdeal Cert.KernelIdeal.Gen Idealize.ShloMosaic
open Cert.KernelIdeal.RegionValue (scaleRows)

/-- One step as the kernel arranges it: the gathered rows times the coefficient column (row by row), added at the
    destinations, plus the type term. -/
def stepK (rv cv : IE) (A : FVec Ideal S1250000x1 .f32) (Cc : VN) (h : VN) : VN :=
  addf (SC cv (scaleRows (GA rv h) A)) Cc

end Cert.KernelIdeal.KV

end
-- ==== Proof.KValue.lean ====
/-
  The kernel program's result as one function of its arguments.

  The buffer contents at each boundary of @main's segments are followed from the launch: the stretch before the first
  region leaves the edge words R, C, the per-edge coefficient column A = w · nrm, the type term Cc (the type rows times
  nrm added at their destinations) and the first gathered rows; each region multiplies the gathered rows by A, row by
  row; each stretch between regions adds the products at their destinations, adds Cc — one step — and gathers again.
-/
import proofs.«116709_j50457275794115_2_alg».proof.Proof.Gen.KernelIdeal.Frame
import proofs.«116709_j50457275794115_2_alg».proof.Proof.KStages
import proofs.«116709_j50457275794115_2_alg».proof.Proof.KRegion
import proofs.«116709_j50457275794115_2_alg».proof.Proof.KStep

noncomputable section

namespace Cert.KernelIdeal.KV

open Cert.KernelIdeal Cert.KernelIdeal.Gen Idealize.ShloMosaic Idealize.ShloMosaic.TcCoe Idealize.SL.Sem Idealize.ShloMosaic.StableHlo
open Cert.KernelIdeal.RegionValue (scaleRows)

variable (m : (ℓ : Loc nD τ sig) → Buf (Elt Ideal) ℓ) (ρ : Dev nD → PrngReg) (c : Dev nD)

/-- The arguments as launched. -/
abbrev a0 : IVec S2x1250000 32 := m ((c.tc : Thread nD τ).loc main_arg0)
abbrev a1 : V1 := m ((c.tc : Thread nD τ).loc main_arg1)
abbrev a2 : IE := m ((c.tc : Thread nD τ).loc main_arg2)
abbrev a3 : VN := m ((c.tc : Thread nD τ).loc main_arg3)
abbrev a4 : FVec Ideal S3x64 .f32 := m ((c.tc : Thread nD τ).loc main_arg4)
/-- The edge words, the normalisation, the coefficient column, the type term. -/
abbrev kR : IE := ROW (a0 m c)
abbrev kC : IE := COL (a0 m c)
abbrev kN : V1 := NRM (DINV (kR m c)) (kR m c) (kC m c)
abbrev kA : FVec Ideal S1250000x1 .f32 := shapeCast S1250000x1 (mulf (a1 m c) (kN m c)) shapeCasts_S1250000_S1250000x1
abbrev kT : VE := TE (a4 m c) (a2 m c)
abbrev kCc : VN := SC (kC m c) (mulf (kT m c) (bcE (bc1 (kN m c))))
abbrev kStep : VN → VN := stepK (kR m c) (kC m c) (kA m c) (kCc m c)

/-! ## Before the first region -/
theorem w4_v1 : (W4 m ρ c (Proc.devRef .tc main_v1) : IE) = kR m c := pre_v1 (W0 m ρ c)
theorem w4_v3 : (W4 m ρ c (Proc.devRef .tc main_v3) : IE) = kC m c := pre_v3 (W0 m ρ c)
theorem w4_v14 : (W4 m ρ c (Proc.devRef .tc main_v14) : FVec Ideal S200000 .f32) = DINV (kR m c) := pre_v14 (W0 m ρ c)
theorem w4_arg1 : (W4 m ρ c (Proc.devRef .tc main_arg1) : V1) = a1 m c := pre_arg1 (W0 m ρ c)
theorem w4_arg2 : (W4 m ρ c (Proc.devRef .tc main_arg2) : IE) = a2 m c := pre_arg2 (W0 m ρ c)
theorem w4_arg3 : (W4 m ρ c (Proc.devRef .tc main_arg3) : VN) = a3 m c := pre_arg3 (W0 m ρ c)
theorem w4_arg4 : (W4 m ρ c (Proc.devRef .tc main_arg4) : FVec Ideal S3x64 .f32) = a4 m c := pre_arg4 (W0 m ρ c)

theorem w5_v1 : (W5 m ρ c (Proc.devRef .tc main_v1) : IE) = kR m c := (s4_v1 (W4 m ρ c)).trans (w4_v1 m ρ c)
theorem w5_v3 : (W5 m ρ c (Proc.devRef .tc main_v3) : IE) = kC m c := (s4_v3 (W4 m ρ c)).trans (w4_v3 m ρ c)
theorem w5_v38 : (W5 m ρ c (Proc.devRef .tc main_v38) : FVec Ideal S1250000x1 .f32) = kA m c :=
  (s4_v38 (W4 m ρ c)).trans (by rw [w4_arg1, w4_v14, w4_v1, w4_v3])
theorem w5_v44 : (W5 m ρ c (Proc.devRef .tc main_v44) : VN) = kCc m c :=
  (s4_v44 (W4 m ρ c)).trans (by rw [w4_arg4, w4_arg2, w4_v14, w4_v1, w4_v3])
theorem w5_v46 : (W5 m ρ c (Proc.devRef .tc main_v46) : VN) = mulf (a3 m c) qv :=
  (s4_v46 (W4 m ρ c)).trans (by rw [w4_arg3])
theorem w5_v53 : (W5 m ρ c (Proc.devRef .tc main_v53) : VE) = GA (kR m c) (a3 m c) :=
  (s4_v53 (W4 m ρ c)).trans (by rw [w4_v1, w4_arg3])

/-! ## The first region and the stretch after it -/
theorem w6_v54 : (W6 m ρ c (Proc.devRef .tc main_v54) : VE) = scaleRows (GA (kR m c) (a3 m c)) (kA m c) :=
  ((W6_arr m ρ c 2).trans (Cert.KernelIdeal.RegionValue.region0_value (V5 m ρ) c)).trans
    (by rw [show V5 m ρ c main_v53 = W5 m ρ c (Proc.devRef .tc main_v53) from rfl, show V5 m ρ c main_v38 = W5 m ρ c (Proc.devRef .tc main_v38) from rfl, w5_v53, w5_v38])
theorem w6_v1 : (W6 m ρ c (Proc.devRef .tc main_v1) : IE) = kR m c := (W6_of_ne m ρ c main_v1 (by decide)).trans (w5_v1 m ρ c)
theorem w6_v3 : (W6 m ρ c (Proc.devRef .tc main_v3) : IE) = kC m c := (W6_of_ne m ρ c main_v3 (by decide)).trans (w5_v3 m ρ c)
theorem w6_v38 : (W6 m ρ c (Proc.devRef .tc main_v38) : FVec Ideal S1250000x1 .f32) = kA m c := (W6_arr m ρ c 1).trans ((dat0 (V5 m ρ) c).arrAt_in 1 rfl _ |>.trans (w5_v38 m ρ c))
theorem w6_v44 : (W6 m ρ c (Proc.devRef .tc main_v44) : VN) = kCc m c := (W6_of_ne m ρ c main_v44 (by decide)).trans (w5_v44 m ρ c)
theorem w6_v46 : (W6 m ρ c (Proc.devRef .tc main_v46) : VN) = mulf (a3 m c) qv := (W6_of_ne m ρ c main_v46 (by decide)).trans (w5_v46 m ρ c)

theorem w7_v1 : (W7 m ρ c (Proc.devRef .tc main_v1) : IE) = kR m c := (s1_v1 (W6 m ρ c)).trans (w6_v1 m ρ c)
theorem w7_v3 : (W7 m ρ c (Proc.devRef .tc main_v3) : IE) = kC m c := (s1_v3 (W6 m ρ c)).trans (w6_v3 m ρ c)
theorem w7_v38 : (W7 m ρ c (Proc.devRef .tc main_v38) : FVec Ideal S1250000x1 .f32) = kA m c := (s1_v38 (W6 m ρ c)).trans (w6_v38 m ρ c)
theorem w7_v44 : (W7 m ρ c (Proc.devRef .tc main_v44) : VN) = kCc m c := (s1_v44 (W6 m ρ c)).trans (w6_v44 m ρ c)
theorem w7_v68 : (W7 m ρ c (Proc.devRef .tc main_v68) : VE) = GA (kR m c) (kStep m c (a3 m c)) :=
  (s1_v68 (W6 m ρ c)).trans (by rw [w6_v1, w6_v3, w6_v54, w6_v44]; rfl)
theorem w7_v61 : (W7 m ρ c (Proc.devRef .tc main_v61) : VN) = addf (mulf (a3 m c) qv) (mulf (kStep m c (a3 m c)) qv) :=
  (s1_v61 (W6 m ρ c)).trans (by rw [w6_v46, w6_v3, w6_v54, w6_v44]; rfl)

/-! ## The second region and the stretch after it -/
theorem w8_v69 : (W8 m ρ c (Proc.devRef .tc main_v69) : VE) = scaleRows (GA (kR m c) (kStep m c (a3 m c))) (kA m c) :=
  ((W8_arr m ρ c 2).trans (Cert.KernelIdeal.RegionValue.region1_value (V7 m ρ) c)).trans
    (by rw [show V7 m ρ c main_v68 = W7 m ρ c (Proc.devRef .tc main_v68) from rfl, show V7 m ρ c main_v38 = W7 m ρ c (Proc.devRef .tc main_v38) from rfl, w7_v68, w7_v38])
theorem w8_v1 : (W8 m ρ c (Proc.devRef .tc main_v1) : IE) = kR m c := (W8_of_ne m ρ c main_v1 (by decide)).trans (w7_v1 m ρ c)
theorem w8_v3 : (W8 m ρ c (Proc.devRef .tc main_v3) : IE) = kC m c := (W8_of_ne m ρ c main_v3 (by decide)).trans (w7_v3 m ρ c)
theorem w8_v38 : (W8 m ρ c (Proc.devRef .tc main_v38) : FVec Ideal S1250000x1 .f32) = kA m c :=
  (W8_arr m ρ c 1).trans (((dat1 (V7 m ρ) c).arrAt_in 1 rfl _).trans (w7_v38 m ρ c))
theorem w8_v44 : (W8 m ρ c (Proc.devRef .tc main_v44) : VN) = kCc m c := (W8_of_ne m ρ c main_v44 (by decide)).trans (w7_v44 m ρ c)
theorem w8_v61 : (W8 m ρ c (Proc.devRef .tc main_v61) : VN) = addf (mulf (a3 m c) qv) (mulf (kStep m c (a3 m c)) qv) :=
  (W8_of_ne m ρ c main_v61 (by decide)).trans (w7_v61 m ρ c)

theorem w9_v3 : (W9 m ρ c (Proc.devRef .tc main_v3) : IE) = kC m c := (s2_v3 (W8 m ρ c)).trans (w8_v3 m ρ c)
theorem w9_v38 : (W9 m ρ c (Proc.devRef .tc main_v38) : FVec Ideal S1250000x1 .f32) = kA m c := (s2_v38 (W8 m ρ c)).trans (w8_v38 m ρ c)
theorem w9_v44 : (W9 m ρ c (Proc.devRef .tc main_v44) : VN) = kCc m c := (s2_v44 (W8 m ρ c)).trans (w8_v44 m ρ c)
theorem w9_v83 : (W9 m ρ c (Proc.devRef .tc main_v83) : VE) = GA (kR m c) (kStep m c (kStep m c (a3 m c))) :=
  (s2_v83 (W8 m ρ c)).trans (by rw [w8_v1, w8_v3, w8_v69, w8_v44]; rfl)
theorem w9_v76 : (W9 m ρ c (Proc.devRef .tc main_v76) : VN) = addf (addf (mulf (a3 m c) qv) (mulf (kStep m c (a3 m c)) qv)) (mulf (kStep m c (kStep m c (a3 m c))) qv) :=
  (s2_v76 (W8 m ρ c)).trans (by rw [w8_v61, w8_v3, w8_v69, w8_v44]; rfl)

/-! ## The third region and the last stretch -/
theorem w10_v84 : (W10 m ρ c (Proc.devRef .tc main_v84) : VE) = scaleRows (GA (kR m c) (kStep m c (kStep m c (a3 m c)))) (kA m c) :=
  ((W10_arr m ρ c 2).trans (Cert.KernelIdeal.RegionValue.region2_value (V9 m ρ) c)).trans
    (by rw [show V9 m ρ c main_v83 = W9 m ρ c (Proc.devRef .tc main_v83) from rfl, show V9 m ρ c main_v38 = W9 m ρ c (Proc.devRef .tc main_v38) from rfl, w9_v83, w9_v38])
theorem w10_v3 : (W10 m ρ c (Proc.devRef .tc main_v3) : IE) = kC m c := (W10_of_ne m ρ c main_v3 (by decide)).trans (w9_v3 m ρ c)
theorem w10_v44 : (W10 m ρ c (Proc.devRef .tc main_v44) : VN) = kCc m c := (W10_of_ne m ρ c main_v44 (by decide)).trans (w9_v44 m ρ c)
theorem w10_v76 : (W10 m ρ c (Proc.devRef .tc main_v76) : VN) = addf (addf (mulf (a3 m c) qv) (mulf (kStep m c (a3 m c)) qv)) (mulf (kStep m c (kStep m c (a3 m c))) qv) :=
  (W10_of_ne m ρ c main_v76 (by decide)).trans (w9_v76 m ρ c)

/-- THE KERNEL'S RESULT: three steps in the kernel's arrangement from the launch contents. -/
theorem kernel_value : (W11 m ρ c (Proc.devRef .tc main_v91) : VN) = out3 (kStep m c) (a3 m c) :=
  (s3_v91 (W10 m ρ c)).trans (by rw [w10_v76, w10_v3, w10_v84, w10_v44]; rfl)

end Cert.KernelIdeal.KV

end
-- ==== Proof.LibAfterAppend.lean ====
/-
  Running two straight lines of host operations one after the other is running their concatenation: the
  buffer contents after `l₁ ++ l₂` from `V` are the contents after `l₂` from the contents after `l₁` from `V`.
  It lets the value a long line leaves in a buffer be computed in pieces: the part of the line that produces an
  intermediate value, then the part that consumes it, each over an arbitrary starting valuation.
-/
import Idealize.ShloMosaic.Lib.StableHlo.Run

namespace Idealize.ShloMosaic.StableHlo

variable {τ : Topo} {sig : RefSig} {Val : EltTy → Type}

/-- The contents after a concatenation are the contents after the second line, started from the contents after
    the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a concatenation has a property when every operation of each part has it. -/
theorem forall_append {p : HloOp τ sig Val → Prop} {l₁ l₂ : List (HloOp τ sig Val)}
    (h₁ : l₁.Forall p) (h₂ : l₂.Forall p) : (l₁ ++ l₂).Forall p :=
  List.forall_iff_forall_mem.2 fun op hop =>
    (List.mem_append.1 hop).elim (List.forall_iff_forall_mem.1 h₁ op) (List.forall_iff_forall_mem.1 h₂ op)

end Idealize.ShloMosaic.StableHlo
-- ==== Proof.RStages.lean ====
/-
  The reference program's operation list cut into five consecutive stretches — the edge words and the degree factor;
  the per-edge normalisation, the type rows and the initial quarter; then one stretch per propagation step — and what
  each stretch leaves in the buffers the later ones read, as a function of the contents it starts from (an arbitrary
  valuation `W`).  The values are named by the definitions the kernel's side uses, so that the two programs' results
  are stated over one vocabulary.
-/
import proofs.«116709_j50457275794115_2_alg».proof.Proof.RefRun
import proofs.«116709_j50457275794115_2_alg».proof.Proof.KTerms
import proofs.«116709_j50457275794115_2_alg».proof.Proof.LibAfterAppend

noncomputable section

namespace Cert.ReferenceIdeal.RV

open Cert.ReferenceIdeal Cert.ReferenceIdeal.Gen Idealize.ShloMosaic Idealize.ShloMosaic.TcCoe Idealize.SL.Sem Idealize.ShloMosaic.StableHlo
open Cert.KernelIdeal.KV

section Segments
variable {F : FTy → Type} [FloatOps F]

/-- The edge words, the out-degree, the two comparisons of the degree with zero. -/
abbrev opsA0 : List (HloOp τ sig (Elt F)) :=
  [ unary main_arg0 main_v0 ((extractStridedSlice S1x1250000 ![0, 0] · slices_S2x1250000_S1x1250000_0_0) : (⟨S2x1250000, .i32⟩ : BufTy).Contents (Elt F) → (⟨S1x1250000, .i32⟩ : BufTy).Contents (Elt F)),
    reshape main_v0 main_v1 rfl shapeCasts_S1x1250000_S1250000,
    unary main_arg0 main_v2 ((extractStridedSlice S1x1250000 ![1, 0] · slices_S2x1250000_S1x1250000_1_0) : (⟨S2x1250000, .i32⟩ : BufTy).Contents (Elt F) → (⟨S1x1250000, .i32⟩ : BufTy).Contents (Elt F)),
    reshape main_v2 main_v3 rfl shapeCasts_S1x1250000_S1250000,
    nullary main_cst (constant S_ .f32 0x3F800000#32),
    unary main_cst main_v4 (broadcastInDim S1250000 ![] bcast_S_S1250000 : (⟨S_, .f32⟩ : BufTy).Contents (Elt F) → (⟨S1250000, .f32⟩ : BufTy).Contents (Elt F)),
    nullary main_cst_0 (constant S_ .f32 0x00000000#32),
    unary main_cst_0 main_v5 (broadcastInDim S200000 ![] bcast_S_S200000 : (⟨S_, .f32⟩ : BufTy).Contents (Elt F) → (⟨S200000, .f32⟩ : BufTy).Contents (Elt F)),
    unary main_v1 main_v6 (broadcastInDim S1250000x1 ![0] bcast_S1250000_S1250000x1_0 : (⟨S1250000, .i32⟩ : BufTy).Contents (Elt F) → (⟨S1250000x1, .i32⟩ : BufTy).Contents (Elt F)),
    ternary main_v5 main_v6 main_v4 main_v7 ((fun x i u => Host.scatterAdd scatter_S200000_S1250000x1_S1250000_n_0_0_1 x i u) : (⟨S200000, .f32⟩ : BufTy).Contents (Elt F) → (⟨S1250000x1, .i32⟩ : BufTy).Contents (Elt F) → (⟨S1250000, .f32⟩ : BufTy).Contents (Elt F) → (⟨S200000, .f32⟩ : BufTy).Contents (Elt F)),
    nullary main_cst_1 (constant S_ .f32 0x00000000#32),
    unary main_cst_1 main_v8 (broadcastInDim S200000 ![] bcast_S_S200000 : (⟨S_, .f32⟩ : BufTy).Contents (Elt F) → (⟨S200000, .f32⟩ : BufTy).Contents (Elt F)),
    binary main_v7 main_v8 main_v9 (cmpf .ogt : (⟨S200000, .f32⟩ : BufTy).Contents (Elt F) → (⟨S200000, .f32⟩ : BufTy).Contents (Elt F) → (⟨S200000, .i1⟩ : BufTy).Contents (Elt F)),
    nullary main_cst_2 (constant S_ .f32 0x00000000#32),
    unary main_cst_2 main_v10 (broadcastInDim S200000 ![] bcast_S_S200000 : (⟨S_, .f32⟩ : BufTy).Contents (Elt F) → (⟨S200000, .f32⟩ : BufTy).Contents (Elt F)),
    binary main_v7 main_v10 main_v11 (cmpf .ogt : (⟨S200000, .f32⟩ : BufTy).Contents (Elt F) → (⟨S200000, .f32⟩ : BufTy).Contents (Elt F) → (⟨S200000, .i1⟩ : BufTy).Contents (Elt F)),
    nullary main_cst_3 (constant S_ .f32 0x3F800000#32) ]

/-- Where the degree is positive keep it, elsewhere one. -/
abbrev opsA1 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v11) (TRef.of (T := ⟨S200000, .f32⟩) main_v7) (TRef.of (T := ⟨S200000, .f32⟩) main_call0_v1) (TRef.of (T := ⟨S200000, .f32⟩) main_v12) select ]

/-- The reciprocal square root. -/
abbrev opsA2 : List (HloOp τ sig (Elt F)) :=
  [ unary main_v12 main_v13 (Host.rsqrt : (⟨S200000, .f32⟩ : BufTy).Contents (Elt F) → (⟨S200000, .f32⟩ : BufTy).Contents (Elt F)),
    nullary main_cst_4 (constant S_ .f32 0x00000000#32) ]

/-- Where the degree is positive keep the reciprocal square root, elsewhere zero: the degree factor. -/
abbrev opsA3 : List (HloOp τ sig (Elt F)) :=
  [ TRef.unary (TRef.of (T := ⟨S_, .f32⟩) main_cst_4) (TRef.of (T := ⟨S_, .f32⟩) main_call1_v0) id,
    TRef.unary (TRef.of (T := ⟨S_, .f32⟩) main_call1_v0) (TRef.of (T := ⟨S200000, .f32⟩) main_call1_v1) (broadcastInDim S200000 ![] bcast_S_S200000),
    TRef.ternary (TRef.of (T := ⟨S200000, .i1⟩) main_v9) (TRef.of (T := ⟨S200000, .f32⟩) main_v13) (TRef.of (T := ⟨S200000, .f32⟩) main_call1_v1) (TRef.of (T := ⟨S200000, .f32⟩) main_v14) select ]

/-- The per-edge normalisation, the type rows, the initial features times one quarter. -/
abbrev opsB : List (HloOp τ sig (Elt F)) :=
  [ nullary main_c (constantI S_ 32 0#32),
    unary main_c main_v15 (broadcastInDim S1250000 ![] bcast_S_S1250000 : (⟨S_, .i32⟩ : BufTy).Contents (Elt F) → (⟨S1250000, .i32⟩ : BufTy).Contents (Elt F)),
    binary main_v1 main_v15 main_v16 (cmpi .slt : (⟨S1250000, .i32⟩ : BufTy).Contents (Elt F) → (⟨S1250000, .i32⟩ : BufTy).Contents (Elt F) → (⟨S1250000, .i1⟩ : BufTy).Contents (Elt F)),
    nullary main_c_5 (constantI S_ 32 200000#32),
    unary main_c_5 main_v17 (broadcastInDim S1250000 ![] bcast_S_S1250000 : (⟨S_, .i32⟩ : BufTy).Contents (Elt F) → (⟨S1250000, .i32⟩ : BufTy).Contents (Elt F)),
    binary main_v1 main_v17 main_v18 (addi : (⟨S1250000, .i32⟩ : BufTy).Contents (Elt F) → (⟨S1250000, .i32⟩ : BufTy).Contents (Elt F) → (⟨S1250000, .i32⟩ : BufTy).Contents (Elt F)),
    ternary main_v16 main_v18 main_v1 main_v19 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v19 main_v20 (broadcastInDim S1250000x1 ![0] bcast_S1250000_S1250000x1_0 : (⟨S1250000, .i32⟩ : BufTy).Contents (Elt F) → (⟨S1250000x1, .i32⟩ : BufTy).Contents (Elt F)),
    binary main_v14 main_v20 main_v21 ((fun x i => Host.gather gather_S200000_S1250000x1_S1250000_n_0_n_n_0_1_1 x i) : (⟨S200000, .f32⟩ : BufTy).Contents (Elt F) → (⟨S1250000x1, .i32⟩ : BufTy).Contents (Elt F) → (⟨S1250000, .f32⟩ : BufTy).Contents (Elt F)),
    nullary main_c_6 (constantI S_ 32 0#32),
    unary main_c_6 main_v22 (broadcastInDim S1250000 ![] bcast_S_S1250000 : (⟨S_, .i32⟩ : BufTy).Contents (Elt F) → (⟨S1250000, .i32⟩ : BufTy).Contents (Elt F)),
    binary main_v3 main_v22 main_v23 (cmpi .slt : (⟨S1250000, .i32⟩ : BufTy).Contents (Elt F) → (⟨S1250000, .i32⟩ : BufTy).Contents (Elt F) → (⟨S1250000, .i1⟩ : BufTy).Contents (Elt F)),
    nullary main_c_7 (constantI S_ 32 200000#32),
    unary main_c_7 main_v24 (broadcastInDim S1250000 ![] bcast_S_S1250000 : (⟨S_, .i32⟩ : BufTy).Contents (Elt F) → (⟨S1250000, .i32⟩ : BufTy).Contents (Elt F)),
    binary main_v3 main_v24 main_v25 (addi : (⟨S1250000, .i32⟩ : BufTy).Contents (Elt F) → (⟨S1250000, .i32⟩ : BufTy).Contents (Elt F) → (⟨S1250000, .i32⟩ : BufTy).Contents (Elt F)),
    ternary main_v23 main_v25 main_v3 main_v26 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v26 main_v27 (broadcastInDim S1250000x1 ![0] bcast_S1250000_S1250000x1_0 : (⟨S1250000, .i32⟩ : BufTy).Contents (Elt F) → (⟨S1250000x1, .i32⟩ : BufTy).Contents (Elt F)),
    binary main_v14 main_v27 main_v28 ((fun x i => Host.gather gather_S200000_S1250000x1_S1250000_n_0_n_n_0_1_1 x i) : (⟨S200000, .f32⟩ : BufTy).Contents (Elt F) → (⟨S1250000x1, .i32⟩ : BufTy).Contents (Elt F) → (⟨S1250000, .f32⟩ : BufTy).Contents (Elt F)),
    binary main_v21 main_v28 main_v29 (mulf : (⟨S1250000, .f32⟩ : BufTy).Contents (Elt F) → (⟨S1250000, .f32⟩ : BufTy).Contents (Elt F) → (⟨S1250000, .f32⟩ : BufTy).Contents (Elt F)),
    unary main_v29 main_v30 (broadcastInDim S1250000x1 ![0] bcast_S1250000_S1250000x1_0 : (⟨S1250000, .f32⟩ : BufTy).Contents (Elt F) → (⟨S1250000x1, .f32⟩ : BufTy).Contents (Elt F)),
    nullary main_c_8 (constantI S_ 32 0#32),
    unary main_c_8 main_v31 (broadcastInDim S1250000 ![] bcast_S_S1250000 : (⟨S_, .i32⟩ : BufTy).Contents (Elt F) → (⟨S1250000, .i32⟩ : BufTy).Contents (Elt F)),
    binary main_arg2 main_v31 main_v32 (cmpi .slt : (⟨S1250000, .i32⟩ : BufTy).Contents (Elt F) → (⟨S1250000, .i32⟩ : BufTy).Contents (Elt F) → (⟨S1250000, .i1⟩ : BufTy).Contents (Elt F)),
    nullary main_c_9 (constantI S_ 32 3#32),
    unary main_c_9 main_v33 (broadcastInDim S1250000 ![] bcast_S_S1250000 : (⟨S_, .i32⟩ : BufTy).Contents (Elt F) → (⟨S1250000, .i32⟩ : BufTy).Contents (Elt F)),
    binary main_arg2 main_v33 main_v34 (addi : (⟨S1250000, .i32⟩ : BufTy).Contents (Elt F) → (⟨S1250000, .i32⟩ : BufTy).Contents (Elt F) → (⟨S1250000, .i32⟩ : BufTy).Contents (Elt F)),
    ternary main_v32 main_v34 main_arg2 main_v35 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v35 main_v36 (broadcastInDim S1250000x1 ![0] bcast_S1250000_S1250000x1_0 : (⟨S1250000, .i32⟩ : BufTy).Contents (Elt F) → (⟨S1250000x1, .i32⟩ : BufTy).Contents (Elt F)),
    binary main_arg4 main_v36 main_v37 ((fun x i => Host.gather gather_S3x64_S1250000x1_S1250000x64_1_0_n_n_0_1_164 x i) : (⟨S3x64, .f32⟩ : BufTy).Contents (Elt F) → (⟨S1250000x1, .i32⟩ : BufTy).Contents (Elt F) → (⟨S1250000x64, .f32⟩ : BufTy).Contents (Elt F)),
    nullary main_cst_10 (constant S_ .f32 0x3E800000#32),
    unary main_cst_10 main_v38 (broadcastInDim S200000x64 ![] bcast_S_S200000x64 : (⟨S_, .f32⟩ : BufTy).Contents (Elt F) → (⟨S200000x64, .f32⟩ : BufTy).Contents (Elt F)),
    binary main_arg3 main_v38 main_v39 (mulf : (⟨S200000x64, .f32⟩ : BufTy).Contents (Elt F) → (⟨S200000x64, .f32⟩ : BufTy).Contents (Elt F) → (⟨S200000x64, .f32⟩ : BufTy).Contents (Elt F)) ]

/-- The first propagation step. -/
abbrev opsL1 : List (HloOp τ sig (Elt F)) :=
  [ nullary main_c_11 (constantI S_ 32 0#32),
    unary main_c_11 main_v40 (broadcastInDim S1250000 ![] bcast_S_S1250000 : (⟨S_, .i32⟩ : BufTy).Contents (Elt F) → (⟨S1250000, .i32⟩ : BufTy).Contents (Elt F)),
    binary main_v1 main_v40 main_v41 (cmpi .slt : (⟨S1250000, .i32⟩ : BufTy).Contents (Elt F) → (⟨S1250000, .i32⟩ : BufTy).Contents (Elt F) → (⟨S1250000, .i1⟩ : BufTy).Contents (Elt F)),
    nullary main_c_12 (constantI S_ 32 200000#32),
    unary main_c_12 main_v42 (broadcastInDim S1250000 ![] bcast_S_S1250000 : (⟨S_, .i32⟩ : BufTy).Contents (Elt F) → (⟨S1250000, .i32⟩ : BufTy).Contents (Elt F)),
    binary main_v1 main_v42 main_v43 (addi : (⟨S1250000, .i32⟩ : BufTy).Contents (Elt F) → (⟨S1250000, .i32⟩ : BufTy).Contents (Elt F) → (⟨S1250000, .i32⟩ : BufTy).Contents (Elt F)),
    ternary main_v41 main_v43 main_v1 main_v44 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v44 main_v45 (broadcastInDim S1250000x1 ![0] bcast_S1250000_S1250000x1_0 : (⟨S1250000, .i32⟩ : BufTy).Contents (Elt F) → (⟨S1250000x1, .i32⟩ : BufTy).Contents (Elt F)),
    binary main_arg3 main_v45 main_v46 ((fun x i => Host.gather gather_S200000x64_S1250000x1_S1250000x64_1_0_n_n_0_1_164 x i) : (⟨S200000x64, .f32⟩ : BufTy).Contents (Elt F) → (⟨S1250000x1, .i32⟩ : BufTy).Contents (Elt F) → (⟨S1250000x64, .f32⟩ : BufTy).Contents (Elt F)),
    unary main_arg1 main_v47 (broadcastInDim S1250000x1 ![0] bcast_S1250000_S1250000x1_0 : (⟨S1250000, .f32⟩ : BufTy).Contents (Elt F) → (⟨S1250000x1, .f32⟩ : BufTy).Contents (Elt F)),
    unary main_v47 main_v48 (broadcastInDim S1250000x64 ![0, 1] bcast_S1250000x1_S1250000x64_0_1 : (⟨S1250000x1, .f32⟩ : BufTy).Contents (Elt F) → (⟨S1250000x64, .f32⟩ : BufTy).Contents (Elt F)),
    binary main_v46 main_v48 main_v49 (mulf : (⟨S1250000x64, .f32⟩ : BufTy).Contents (Elt F) → (⟨S1250000x64, .f32⟩ : BufTy).Contents (Elt F) → (⟨S1250000x64, .f32⟩ : BufTy).Contents (Elt F)),
    binary main_v49 main_v37 main_v50 (addf : (⟨S1250000x64, .f32⟩ : BufTy).Contents (Elt F) → (⟨S1250000x64, .f32⟩ : BufTy).Contents (Elt F) → (⟨S1250000x64, .f32⟩ : BufTy).Contents (Elt F)),
    unary main_v30 main_v51 (broadcastInDim S1250000x64 ![0, 1] bcast_S1250000x1_S1250000x64_0_1 : (⟨S1250000x1, .f32⟩ : BufTy).Contents (Elt F) → (⟨S1250000x64, .f32⟩ : BufTy).Contents (Elt F)),
    binary main_v50 main_v51 main_v52 (mulf : (⟨S1250000x64, .f32⟩ : BufTy).Contents (Elt F) → (⟨S1250000x64, .f32⟩ : BufTy).Contents (Elt F) → (⟨S1250000x64, .f32⟩ : BufTy).Contents (Elt F)),
    nullary main_cst_13 (constant S_ .f32 0x00000000#32),
    unary main_cst_13 main_v53 (broadcastInDim S200000x64 ![] bcast_S_S200000x64 : (⟨S_, .f32⟩ : BufTy).Contents (Elt F) → (⟨S200000x64, .f32⟩ : BufTy).Contents (Elt F)),
    unary main_v3 main_v54 (broadcastInDim S1250000x1 ![0] bcast_S1250000_S1250000x1_0 : (⟨S1250000, .i32⟩ : BufTy).Contents (Elt F) → (⟨S1250000x1, .i32⟩ : BufTy).Contents (Elt F)),
    ternary main_v53 main_v54 main_v52 main_v55 ((fun x i u => Host.scatterAdd scatter_S200000x64_S1250000x1_S1250000x64_1_0_0_1 x i u) : (⟨S200000x64, .f32⟩ : BufTy).Contents (Elt F) → (⟨S1250000x1, .i32⟩ : BufTy).Contents (Elt F) → (⟨S1250000x64, .f32⟩ : BufTy).Contents (Elt F) → (⟨S200000x64, .f32⟩ : BufTy).Contents (Elt F)),
    nullary main_cst_14 (constant S_ .f32 0x3E800000#32),
    unary main_cst_14 main_v56 (broadcastInDim S200000x64 ![] bcast_S_S200000x64 : (⟨S_, .f32⟩ : BufTy).Contents (Elt F) → (⟨S200000x64, .f32⟩ : BufTy).Contents (Elt F)),
    binary main_v55 main_v56 main_v57 (mulf : (⟨S200000x64, .f32⟩ : BufTy).Contents (Elt F) → (⟨S200000x64, .f32⟩ : BufTy).Contents (Elt F) → (⟨S200000x64, .f32⟩ : BufTy).Contents (Elt F)),
    binary main_v39 main_v57 main_v58 (addf : (⟨S200000x64, .f32⟩ : BufTy).Contents (Elt F) → (⟨S200000x64, .f32⟩ : BufTy).Contents (Elt F) → (⟨S200000x64, .f32⟩ : BufTy).Contents (Elt F)) ]

/-- The second propagation step. -/
abbrev opsL2 : List (HloOp τ sig (Elt F)) :=
  [ nullary main_c_15 (constantI S_ 32 0#32),
    unary main_c_15 main_v59 (broadcastInDim S1250000 ![] bcast_S_S1250000 : (⟨S_, .i32⟩ : BufTy).Contents (Elt F) → (⟨S1250000, .i32⟩ : BufTy).Contents (Elt F)),
    binary main_v1 main_v59 main_v60 (cmpi .slt : (⟨S1250000, .i32⟩ : BufTy).Contents (Elt F) → (⟨S1250000, .i32⟩ : BufTy).Contents (Elt F) → (⟨S1250000, .i1⟩ : BufTy).Contents (Elt F)),
    nullary main_c_16 (constantI S_ 32 200000#32),
    unary main_c_16 main_v61 (broadcastInDim S1250000 ![] bcast_S_S1250000 : (⟨S_, .i32⟩ : BufTy).Contents (Elt F) → (⟨S1250000, .i32⟩ : BufTy).Contents (Elt F)),
    binary main_v1 main_v61 main_v62 (addi : (⟨S1250000, .i32⟩ : BufTy).Contents (Elt F) → (⟨S1250000, .i32⟩ : BufTy).Contents (Elt F) → (⟨S1250000, .i32⟩ : BufTy).Contents (Elt F)),
    ternary main_v60 main_v62 main_v1 main_v63 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v63 main_v64 (broadcastInDim S1250000x1 ![0] bcast_S1250000_S1250000x1_0 : (⟨S1250000, .i32⟩ : BufTy).Contents (Elt F) → (⟨S1250000x1, .i32⟩ : BufTy).Contents (Elt F)),
    binary main_v55 main_v64 main_v65 ((fun x i => Host.gather gather_S200000x64_S1250000x1_S1250000x64_1_0_n_n_0_1_164 x i) : (⟨S200000x64, .f32⟩ : BufTy).Contents (Elt F) → (⟨S1250000x1, .i32⟩ : BufTy).Contents (Elt F) → (⟨S1250000x64, .f32⟩ : BufTy).Contents (Elt F)),
    unary main_arg1 main_v66 (broadcastInDim S1250000x1 ![0] bcast_S1250000_S1250000x1_0 : (⟨S1250000, .f32⟩ : BufTy).Contents (Elt F) → (⟨S1250000x1, .f32⟩ : BufTy).Contents (Elt F)),
    unary main_v66 main_v67 (broadcastInDim S1250000x64 ![0, 1] bcast_S1250000x1_S1250000x64_0_1 : (⟨S1250000x1, .f32⟩ : BufTy).Contents (Elt F) → (⟨S1250000x64, .f32⟩ : BufTy).Contents (Elt F)),
    binary main_v65 main_v67 main_v68 (mulf : (⟨S1250000x64, .f32⟩ : BufTy).Contents (Elt F) → (⟨S1250000x64, .f32⟩ : BufTy).Contents (Elt F) → (⟨S1250000x64, .f32⟩ : BufTy).Contents (Elt F)),
    binary main_v68 main_v37 main_v69 (addf : (⟨S1250000x64, .f32⟩ : BufTy).Contents (Elt F) → (⟨S1250000x64, .f32⟩ : BufTy).Contents (Elt F) → (⟨S1250000x64, .f32⟩ : BufTy).Contents (Elt F)),
    unary main_v30 main_v70 (broadcastInDim S1250000x64 ![0, 1] bcast_S1250000x1_S1250000x64_0_1 : (⟨S1250000x1, .f32⟩ : BufTy).Contents (Elt F) → (⟨S1250000x64, .f32⟩ : BufTy).Contents (Elt F)),
    binary main_v69 main_v70 main_v71 (mulf : (⟨S1250000x64, .f32⟩ : BufTy).Contents (Elt F) → (⟨S1250000x64, .f32⟩ : BufTy).Contents (Elt F) → (⟨S1250000x64, .f32⟩ : BufTy).Contents (Elt F)),
    nullary main_cst_17 (constant S_ .f32 0x00000000#32),
    unary main_cst_17 main_v72 (broadcastInDim S200000x64 ![] bcast_S_S200000x64 : (⟨S_, .f32⟩ : BufTy).Contents (Elt F) → (⟨S200000x64, .f32⟩ : BufTy).Contents (Elt F)),
    unary main_v3 main_v73 (broadcastInDim S1250000x1 ![0] bcast_S1250000_S1250000x1_0 : (⟨S1250000, .i32⟩ : BufTy).Contents (Elt F) → (⟨S1250000x1, .i32⟩ : BufTy).Contents (Elt F)),
    ternary main_v72 main_v73 main_v71 main_v74 ((fun x i u => Host.scatterAdd scatter_S200000x64_S1250000x1_S1250000x64_1_0_0_1 x i u) : (⟨S200000x64, .f32⟩ : BufTy).Contents (Elt F) → (⟨S1250000x1, .i32⟩ : BufTy).Contents (Elt F) → (⟨S1250000x64, .f32⟩ : BufTy).Contents (Elt F) → (⟨S200000x64, .f32⟩ : BufTy).Contents (Elt F)),
    nullary main_cst_18 (constant S_ .f32 0x3E800000#32),
    unary main_cst_18 main_v75 (broadcastInDim S200000x64 ![] bcast_S_S200000x64 : (⟨S_, .f32⟩ : BufTy).Contents (Elt F) → (⟨S200000x64, .f32⟩ : BufTy).Contents (Elt F)),
    binary main_v74 main_v75 main_v76 (mulf : (⟨S200000x64, .f32⟩ : BufTy).Contents (Elt F) → (⟨S200000x64, .f32⟩ : BufTy).Contents (Elt F) → (⟨S200000x64, .f32⟩ : BufTy).Contents (Elt F)),
    binary main_v58 main_v76 main_v77 (addf : (⟨S200000x64, .f32⟩ : BufTy).Contents (Elt F) → (⟨S200000x64, .f32⟩ : BufTy).Contents (Elt F) → (⟨S200000x64, .f32⟩ : BufTy).Contents (Elt F)) ]

/-- The third propagation step. -/
abbrev opsL3 : List (HloOp τ sig (Elt F)) :=
  [ nullary main_c_19 (constantI S_ 32 0#32),
    unary main_c_19 main_v78 (broadcastInDim S1250000 ![] bcast_S_S1250000 : (⟨S_, .i32⟩ : BufTy).Contents (Elt F) → (⟨S1250000, .i32⟩ : BufTy).Contents (Elt F)),
    binary main_v1 main_v78 main_v79 (cmpi .slt : (⟨S1250000, .i32⟩ : BufTy).Contents (Elt F) → (⟨S1250000, .i32⟩ : BufTy).Contents (Elt F) → (⟨S1250000, .i1⟩ : BufTy).Contents (Elt F)),
    nullary main_c_20 (constantI S_ 32 200000#32),
    unary main_c_20 main_v80 (broadcastInDim S1250000 ![] bcast_S_S1250000 : (⟨S_, .i32⟩ : BufTy).Contents (Elt F) → (⟨S1250000, .i32⟩ : BufTy).Contents (Elt F)),
    binary main_v1 main_v80 main_v81 (addi : (⟨S1250000, .i32⟩ : BufTy).Contents (Elt F) → (⟨S1250000, .i32⟩ : BufTy).Contents (Elt F) → (⟨S1250000, .i32⟩ : BufTy).Contents (Elt F)),
    ternary main_v79 main_v81 main_v1 main_v82 (select : (⟨S1250000, .i1⟩ : BufTy).Contents (Elt F) → (⟨S1250000, .i32⟩ : BufTy).Contents (Elt F) → (⟨S1250000, .i32⟩ : BufTy).Contents (Elt F) → (⟨S1250000, .i32⟩ : BufTy).Contents (Elt F)),
    unary main_v82 main_v83 (broadcastInDim S1250000x1 ![0] bcast_S1250000_S1250000x1_0 : (⟨S1250000, .i32⟩ : BufTy).Contents (Elt F) → (⟨S1250000x1, .i32⟩ : BufTy).Contents (Elt F)),
    binary main_v74 main_v83 main_v84 ((fun x i => Host.gather gather_S200000x64_S1250000x1_S1250000x64_1_0_n_n_0_1_164 x i) : (⟨S200000x64, .f32⟩ : BufTy).Contents (Elt F) → (⟨S1250000x1, .i32⟩ : BufTy).Contents (Elt F) → (⟨S1250000x64, .f32⟩ : BufTy).Contents (Elt F)),
    unary main_arg1 main_v85 (broadcastInDim S1250000x1 ![0] bcast_S1250000_S1250000x1_0 : (⟨S1250000, .f32⟩ : BufTy).Contents (Elt F) → (⟨S1250000x1, .f32⟩ : BufTy).Contents (Elt F)),
    unary main_v85 main_v86 (broadcastInDim S1250000x64 ![0, 1] bcast_S1250000x1_S1250000x64_0_1 : (⟨S1250000x1, .f32⟩ : BufTy).Contents (Elt F) → (⟨S1250000x64, .f32⟩ : BufTy).Contents (Elt F)),
    binary main_v84 main_v86 main_v87 (mulf : (⟨S1250000x64, .f32⟩ : BufTy).Contents (Elt F) → (⟨S1250000x64, .f32⟩ : BufTy).Contents (Elt F) → (⟨S1250000x64, .f32⟩ : BufTy).Contents (Elt F)),
    binary main_v87 main_v37 main_v88 (addf : (⟨S1250000x64, .f32⟩ : BufTy).Contents (Elt F) → (⟨S1250000x64, .f32⟩ : BufTy).Contents (Elt F) → (⟨S1250000x64, .f32⟩ : BufTy).Contents (Elt F)),
    unary main_v30 main_v89 (broadcastInDim S1250000x64 ![0, 1] bcast_S1250000x1_S1250000x64_0_1 : (⟨S1250000x1, .f32⟩ : BufTy).Contents (Elt F) → (⟨S1250000x64, .f32⟩ : BufTy).Contents (Elt F)),
    binary main_v88 main_v89 main_v90 (mulf : (⟨S1250000x64, .f32⟩ : BufTy).Contents (Elt F) → (⟨S1250000x64, .f32⟩ : BufTy).Contents (Elt F) → (⟨S1250000x64, .f32⟩ : BufTy).Contents (Elt F)),
    nullary main_cst_21 (constant S_ .f32 0x00000000#32),
    unary main_cst_21 main_v91 (broadcastInDim S200000x64 ![] bcast_S_S200000x64 : (⟨S_, .f32⟩ : BufTy).Contents (Elt F) → (⟨S200000x64, .f32⟩ : BufTy).Contents (Elt F)),
    unary main_v3 main_v92 (broadcastInDim S1250000x1 ![0] bcast_S1250000_S1250000x1_0 : (⟨S1250000, .i32⟩ : BufTy).Contents (Elt F) → (⟨S1250000x1, .i32⟩ : BufTy).Contents (Elt F)),
    ternary main_v91 main_v92 main_v90 main_v93 ((fun x i u => Host.scatterAdd scatter_S200000x64_S1250000x1_S1250000x64_1_0_0_1 x i u) : (⟨S200000x64, .f32⟩ : BufTy).Contents (Elt F) → (⟨S1250000x1, .i32⟩ : BufTy).Contents (Elt F) → (⟨S1250000x64, .f32⟩ : BufTy).Contents (Elt F) → (⟨S200000x64, .f32⟩ : BufTy).Contents (Elt F)),
    nullary main_cst_22 (constant S_ .f32 0x3E800000#32),
    unary main_cst_22 main_v94 (broadcastInDim S200000x64 ![] bcast_S_S200000x64 : (⟨S_, .f32⟩ : BufTy).Contents (Elt F) → (⟨S200000x64, .f32⟩ : BufTy).Contents (Elt F)),
    binary main_v93 main_v94 main_v95 (mulf : (⟨S200000x64, .f32⟩ : BufTy).Contents (Elt F) → (⟨S200000x64, .f32⟩ : BufTy).Contents (Elt F) → (⟨S200000x64, .f32⟩ : BufTy).Contents (Elt F)),
    binary main_v77 main_v95 main_v96 (addf : (⟨S200000x64, .f32⟩ : BufTy).Contents (Elt F) → (⟨S200000x64, .f32⟩ : BufTy).Contents (Elt F) → (⟨S200000x64, .f32⟩ : BufTy).Contents (Elt F)) ]

/-- The program's operation list is the five stretches in order. -/
theorem ops_split : (Cert.ReferenceIdeal.RunP.ops : List (HloOp τ sig (Elt F))) = opsA0 ++ (opsA1 ++ (opsA2 ++ (opsA3 ++ (opsB ++ (opsL1 ++ (opsL2 ++ opsL3)))))) := rfl
end Segments

variable (W : Valuation τ sig (Elt Ideal))

/-! ## The edge words and the degree factor -/
/-! ### Stretch by stretch -/

theorem q0_v1 : (StableHlo.after (opsA0 (F := Ideal)) W (Proc.devRef .tc main_v1) : IE) = ROW (W (Proc.devRef .tc main_arg0)) := by
  after_results_simp <;> rfl
theorem q0_v3 : (StableHlo.after (opsA0 (F := Ideal)) W (Proc.devRef .tc main_v3) : IE) = COL (W (Proc.devRef .tc main_arg0)) := by
  after_results_simp <;> rfl
theorem q0_v7 : (StableHlo.after (opsA0 (F := Ideal)) W (Proc.devRef .tc main_v7) : FVec Ideal Cert.KernelIdeal.S200000 .f32) = DEG (ROW (W (Proc.devRef .tc main_arg0))) := by
  after_results_simp <;> rfl
theorem q0_v9 : (StableHlo.after (opsA0 (F := Ideal)) W (Proc.devRef .tc main_v9) : IVec Cert.KernelIdeal.S200000 1) = cmpf .ogt (DEG (ROW (W (Proc.devRef .tc main_arg0)))) z1 := by
  after_results_simp <;> rfl
theorem q0_v11 : (StableHlo.after (opsA0 (F := Ideal)) W (Proc.devRef .tc main_v11) : IVec Cert.KernelIdeal.S200000 1) = cmpf .ogt (DEG (ROW (W (Proc.devRef .tc main_arg0)))) z1 := by
  after_results_simp <;> rfl
theorem q0_cst_3 : (StableHlo.after (opsA0 (F := Ideal)) W (Proc.devRef .tc main_cst_3) : FVec Ideal Cert.KernelIdeal.S_ .f32) = constant (F := Ideal) Cert.KernelIdeal.S_ .f32 0x3F800000#32 := by
  after_results_simp <;> rfl
theorem q0_arg1 : StableHlo.after (opsA0 (F := Ideal)) W (Proc.devRef .tc main_arg1) = (W (Proc.devRef .tc main_arg1)) := by after_results_simp
theorem q0_arg2 : StableHlo.after (opsA0 (F := Ideal)) W (Proc.devRef .tc main_arg2) = (W (Proc.devRef .tc main_arg2)) := by after_results_simp
theorem q0_arg3 : StableHlo.after (opsA0 (F := Ideal)) W (Proc.devRef .tc main_arg3) = (W (Proc.devRef .tc main_arg3)) := by after_results_simp
theorem q0_arg4 : StableHlo.after (opsA0 (F := Ideal)) W (Proc.devRef .tc main_arg4) = (W (Proc.devRef .tc main_arg4)) := by after_results_simp

theorem q1_v12 : (StableHlo.after (opsA1 (F := Ideal)) W (Proc.devRef .tc main_v12) : FVec Ideal Cert.KernelIdeal.S200000 .f32)
    = select (W (Proc.devRef .tc main_v11)) (W (Proc.devRef .tc main_v7)) (broadcastInDim Cert.KernelIdeal.S200000 ![] Cert.KernelIdeal.Gen.bcast_S_S200000 (W (Proc.devRef .tc main_cst_3))) := by
  after_results_simp <;> rfl
theorem q1_v1 : StableHlo.after (opsA1 (F := Ideal)) W (Proc.devRef .tc main_v1) = (W (Proc.devRef .tc main_v1)) := by after_results_simp
theorem q1_v3 : StableHlo.after (opsA1 (F := Ideal)) W (Proc.devRef .tc main_v3) = (W (Proc.devRef .tc main_v3)) := by after_results_simp
theorem q1_v9 : StableHlo.after (opsA1 (F := Ideal)) W (Proc.devRef .tc main_v9) = (W (Proc.devRef .tc main_v9)) := by after_results_simp
theorem q1_arg1 : StableHlo.after (opsA1 (F := Ideal)) W (Proc.devRef .tc main_arg1) = (W (Proc.devRef .tc main_arg1)) := by after_results_simp
theorem q1_arg2 : StableHlo.after (opsA1 (F := Ideal)) W (Proc.devRef .tc main_arg2) = (W (Proc.devRef .tc main_arg2)) := by after_results_simp
theorem q1_arg3 : StableHlo.after (opsA1 (F := Ideal)) W (Proc.devRef .tc main_arg3) = (W (Proc.devRef .tc main_arg3)) := by after_results_simp
theorem q1_arg4 : StableHlo.after (opsA1 (F := Ideal)) W (Proc.devRef .tc main_arg4) = (W (Proc.devRef .tc main_arg4)) := by after_results_simp

theorem q2_v13 : (StableHlo.after (opsA2 (F := Ideal)) W (Proc.devRef .tc main_v13) : FVec Ideal Cert.KernelIdeal.S200000 .f32) = Host.rsqrt (F := Ideal) (φ := .f32) (W (Proc.devRef .tc main_v12)) := by
  after_results_simp <;> rfl
theorem q2_cst_4 : (StableHlo.after (opsA2 (F := Ideal)) W (Proc.devRef .tc main_cst_4) : FVec Ideal Cert.KernelIdeal.S_ .f32) = constant (F := Ideal) Cert.KernelIdeal.S_ .f32 0x00000000#32 := by
  after_results_simp <;> rfl
theorem q2_v1 : StableHlo.after (opsA2 (F := Ideal)) W (Proc.devRef .tc main_v1) = (W (Proc.devRef .tc main_v1)) := by after_results_simp
theorem q2_v3 : StableHlo.after (opsA2 (F := Ideal)) W (Proc.devRef .tc main_v3) = (W (Proc.devRef .tc main_v3)) := by after_results_simp
theorem q2_v9 : StableHlo.after (opsA2 (F := Ideal)) W (Proc.devRef .tc main_v9) = (W (Proc.devRef .tc main_v9)) := by after_results_simp
theorem q2_arg1 : StableHlo.after (opsA2 (F := Ideal)) W (Proc.devRef .tc main_arg1) = (W (Proc.devRef .tc main_arg1)) := by after_results_simp
theorem q2_arg2 : StableHlo.after (opsA2 (F := Ideal)) W (Proc.devRef .tc main_arg2) = (W (Proc.devRef .tc main_arg2)) := by after_results_simp
theorem q2_arg3 : StableHlo.after (opsA2 (F := Ideal)) W (Proc.devRef .tc main_arg3) = (W (Proc.devRef .tc main_arg3)) := by after_results_simp
theorem q2_arg4 : StableHlo.after (opsA2 (F := Ideal)) W (Proc.devRef .tc main_arg4) = (W (Proc.devRef .tc main_arg4)) := by after_results_simp

theorem q3_v14 : (StableHlo.after (opsA3 (F := Ideal)) W (Proc.devRef .tc main_v14) : FVec Ideal Cert.KernelIdeal.S200000 .f32)
    = select (W (Proc.devRef .tc main_v9)) (W (Proc.devRef .tc main_v13)) (broadcastInDim Cert.KernelIdeal.S200000 ![] Cert.KernelIdeal.Gen.bcast_S_S200000 (W (Proc.devRef .tc main_cst_4))) := by
  after_results_simp <;> rfl
theorem q3_v1 : StableHlo.after (opsA3 (F := Ideal)) W (Proc.devRef .tc main_v1) = (W (Proc.devRef .tc main_v1)) := by after_results_simp
theorem q3_v3 : StableHlo.after (opsA3 (F := Ideal)) W (Proc.devRef .tc main_v3) = (W (Proc.devRef .tc main_v3)) := by after_results_simp
theorem q3_arg1 : StableHlo.after (opsA3 (F := Ideal)) W (Proc.devRef .tc main_arg1) = (W (Proc.devRef .tc main_arg1)) := by after_results_simp
theorem q3_arg2 : StableHlo.after (opsA3 (F := Ideal)) W (Proc.devRef .tc main_arg2) = (W (Proc.devRef .tc main_arg2)) := by after_results_simp
theorem q3_arg3 : StableHlo.after (opsA3 (F := Ideal)) W (Proc.devRef .tc main_arg3) = (W (Proc.devRef .tc main_arg3)) := by after_results_simp
theorem q3_arg4 : StableHlo.after (opsA3 (F := Ideal)) W (Proc.devRef .tc main_arg4) = (W (Proc.devRef .tc main_arg4)) := by after_results_simp

/-! ### The four stretches together -/

theorem A_v1 : (StableHlo.after (opsA3 (F := Ideal)) (StableHlo.after (opsA2 (F := Ideal)) (StableHlo.after (opsA1 (F := Ideal)) (StableHlo.after (opsA0 (F := Ideal)) W))) (Proc.devRef .tc main_v1) : IE) = ROW (W (Proc.devRef .tc main_arg0)) := by
  rw [q3_v1, q2_v1, q1_v1, q0_v1]
theorem A_v3 : (StableHlo.after (opsA3 (F := Ideal)) (StableHlo.after (opsA2 (F := Ideal)) (StableHlo.after (opsA1 (F := Ideal)) (StableHlo.after (opsA0 (F := Ideal)) W))) (Proc.devRef .tc main_v3) : IE) = COL (W (Proc.devRef .tc main_arg0)) := by
  rw [q3_v3, q2_v3, q1_v3, q0_v3]
theorem A_v14 : (StableHlo.after (opsA3 (F := Ideal)) (StableHlo.after (opsA2 (F := Ideal)) (StableHlo.after (opsA1 (F := Ideal)) (StableHlo.after (opsA0 (F := Ideal)) W))) (Proc.devRef .tc main_v14) : FVec Ideal Cert.KernelIdeal.S200000 .f32) = DINV (ROW (W (Proc.devRef .tc main_arg0))) := by
  rw [q3_v14, q2_v9, q2_v13, q2_cst_4, q1_v9, q1_v12, q0_v9, q0_v11, q0_v7, q0_cst_3]
  rfl
theorem A_arg1 : StableHlo.after (opsA3 (F := Ideal)) (StableHlo.after (opsA2 (F := Ideal)) (StableHlo.after (opsA1 (F := Ideal)) (StableHlo.after (opsA0 (F := Ideal)) W))) (Proc.devRef .tc main_arg1) = (W (Proc.devRef .tc main_arg1)) := by
  rw [q3_arg1, q2_arg1, q1_arg1, q0_arg1]
theorem A_arg2 : StableHlo.after (opsA3 (F := Ideal)) (StableHlo.after (opsA2 (F := Ideal)) (StableHlo.after (opsA1 (F := Ideal)) (StableHlo.after (opsA0 (F := Ideal)) W))) (Proc.devRef .tc main_arg2) = (W (Proc.devRef .tc main_arg2)) := by
  rw [q3_arg2, q2_arg2, q1_arg2, q0_arg2]
theorem A_arg3 : StableHlo.after (opsA3 (F := Ideal)) (StableHlo.after (opsA2 (F := Ideal)) (StableHlo.after (opsA1 (F := Ideal)) (StableHlo.after (opsA0 (F := Ideal)) W))) (Proc.devRef .tc main_arg3) = (W (Proc.devRef .tc main_arg3)) := by
  rw [q3_arg3, q2_arg3, q1_arg3, q0_arg3]
theorem A_arg4 : StableHlo.after (opsA3 (F := Ideal)) (StableHlo.after (opsA2 (F := Ideal)) (StableHlo.after (opsA1 (F := Ideal)) (StableHlo.after (opsA0 (F := Ideal)) W))) (Proc.devRef .tc main_arg4) = (W (Proc.devRef .tc main_arg4)) := by
  rw [q3_arg4, q2_arg4, q1_arg4, q0_arg4]

/-! ## The normalisation, the type rows, the initial quarter -/
theorem B_v30 : (StableHlo.after (opsB (F := Ideal)) W (Proc.devRef .tc main_v30) : FVec Ideal Cert.KernelIdeal.S1250000x1 .f32)
    = bc1 (NRM (W (Proc.devRef .tc main_v14)) (W (Proc.devRef .tc main_v1)) (W (Proc.devRef .tc main_v3))) := by
  after_results_simp; rfl
theorem B_v37 : (StableHlo.after (opsB (F := Ideal)) W (Proc.devRef .tc main_v37) : VE) = TE (W (Proc.devRef .tc main_arg4)) (W (Proc.devRef .tc main_arg2)) := by
  after_results_simp; rfl
theorem B_v39 : (StableHlo.after (opsB (F := Ideal)) W (Proc.devRef .tc main_v39) : VN) = mulf (W (Proc.devRef .tc main_arg3)) qv := by
  after_results_simp; rfl
theorem B_v1 : StableHlo.after (opsB (F := Ideal)) W (Proc.devRef .tc main_v1) = (W (Proc.devRef .tc main_v1)) := by after_results_simp
theorem B_v3 : StableHlo.after (opsB (F := Ideal)) W (Proc.devRef .tc main_v3) = (W (Proc.devRef .tc main_v3)) := by after_results_simp
theorem B_arg1 : StableHlo.after (opsB (F := Ideal)) W (Proc.devRef .tc main_arg1) = (W (Proc.devRef .tc main_arg1)) := by after_results_simp
theorem B_arg3 : StableHlo.after (opsB (F := Ideal)) W (Proc.devRef .tc main_arg3) = (W (Proc.devRef .tc main_arg3)) := by after_results_simp

/-! ## The three steps -/
theorem L1_v55 : (StableHlo.after (opsL1 (F := Ideal)) W (Proc.devRef .tc main_v55) : VN) = stepR (W (Proc.devRef .tc main_v1)) (W (Proc.devRef .tc main_v3)) (bcE (bc1 (W (Proc.devRef .tc main_arg1)))) (W (Proc.devRef .tc main_v37)) (bcE (W (Proc.devRef .tc main_v30))) (W (Proc.devRef .tc main_arg3)) := by
  after_results_simp; rfl
theorem L1_v58 : (StableHlo.after (opsL1 (F := Ideal)) W (Proc.devRef .tc main_v58) : VN)
    = addf (W (Proc.devRef .tc main_v39)) (mulf (stepR (W (Proc.devRef .tc main_v1)) (W (Proc.devRef .tc main_v3)) (bcE (bc1 (W (Proc.devRef .tc main_arg1)))) (W (Proc.devRef .tc main_v37)) (bcE (W (Proc.devRef .tc main_v30))) (W (Proc.devRef .tc main_arg3))) qv) := by
  after_results_simp; rfl
theorem L1_v1 : StableHlo.after (opsL1 (F := Ideal)) W (Proc.devRef .tc main_v1) = (W (Proc.devRef .tc main_v1)) := by after_results
theorem L1_v3 : StableHlo.after (opsL1 (F := Ideal)) W (Proc.devRef .tc main_v3) = (W (Proc.devRef .tc main_v3)) := by after_results
theorem L1_v30 : StableHlo.after (opsL1 (F := Ideal)) W (Proc.devRef .tc main_v30) = (W (Proc.devRef .tc main_v30)) := by after_results
theorem L1_v37 : StableHlo.after (opsL1 (F := Ideal)) W (Proc.devRef .tc main_v37) = (W (Proc.devRef .tc main_v37)) := by after_results
theorem L1_arg1 : StableHlo.after (opsL1 (F := Ideal)) W (Proc.devRef .tc main_arg1) = (W (Proc.devRef .tc main_arg1)) := by after_results

theorem L2_v74 : (StableHlo.after (opsL2 (F := Ideal)) W (Proc.devRef .tc main_v74) : VN) = stepR (W (Proc.devRef .tc main_v1)) (W (Proc.devRef .tc main_v3)) (bcE (bc1 (W (Proc.devRef .tc main_arg1)))) (W (Proc.devRef .tc main_v37)) (bcE (W (Proc.devRef .tc main_v30))) (W (Proc.devRef .tc main_v55)) := by
  after_results_simp; rfl
theorem L2_v77 : (StableHlo.after (opsL2 (F := Ideal)) W (Proc.devRef .tc main_v77) : VN)
    = addf (W (Proc.devRef .tc main_v58)) (mulf (stepR (W (Proc.devRef .tc main_v1)) (W (Proc.devRef .tc main_v3)) (bcE (bc1 (W (Proc.devRef .tc main_arg1)))) (W (Proc.devRef .tc main_v37)) (bcE (W (Proc.devRef .tc main_v30))) (W (Proc.devRef .tc main_v55))) qv) := by
  after_results_simp; rfl
theorem L2_v1 : StableHlo.after (opsL2 (F := Ideal)) W (Proc.devRef .tc main_v1) = (W (Proc.devRef .tc main_v1)) := by after_results
theorem L2_v3 : StableHlo.after (opsL2 (F := Ideal)) W (Proc.devRef .tc main_v3) = (W (Proc.devRef .tc main_v3)) := by after_results
theorem L2_v30 : StableHlo.after (opsL2 (F := Ideal)) W (Proc.devRef .tc main_v30) = (W (Proc.devRef .tc main_v30)) := by after_results
theorem L2_v37 : StableHlo.after (opsL2 (F := Ideal)) W (Proc.devRef .tc main_v37) = (W (Proc.devRef .tc main_v37)) := by after_results
theorem L2_arg1 : StableHlo.after (opsL2 (F := Ideal)) W (Proc.devRef .tc main_arg1) = (W (Proc.devRef .tc main_arg1)) := by after_results

theorem L3_v96 : (StableHlo.after (opsL3 (F := Ideal)) W (Proc.devRef .tc main_v96) : VN)
    = addf (W (Proc.devRef .tc main_v77)) (mulf (stepR (W (Proc.devRef .tc main_v1)) (W (Proc.devRef .tc main_v3)) (bcE (bc1 (W (Proc.devRef .tc main_arg1)))) (W (Proc.devRef .tc main_v37)) (bcE (W (Proc.devRef .tc main_v30))) (W (Proc.devRef .tc main_v74))) qv) := by
  after_results_simp; rfl

/-! ## The whole list -/

/-- THE REFERENCE'S RESULT: three steps in the reference's arrangement from the launch contents. -/
theorem ref_value : (StableHlo.after (Cert.ReferenceIdeal.RunP.ops (F := Ideal)) W (Proc.devRef .tc main_v96) : VN)
    = out3 (stepR (ROW (W (Proc.devRef .tc main_arg0))) (COL (W (Proc.devRef .tc main_arg0))) (bcE (bc1 (W (Proc.devRef .tc main_arg1)))) (TE (W (Proc.devRef .tc main_arg4)) (W (Proc.devRef .tc main_arg2)))
        (bcE (bc1 (NRM (DINV (ROW (W (Proc.devRef .tc main_arg0)))) (ROW (W (Proc.devRef .tc main_arg0))) (COL (W (Proc.devRef .tc main_arg0)))))))
      (W (Proc.devRef .tc main_arg3)) := by
  rw [ops_split, after_append, after_append, after_append, after_append, after_append, after_append, after_append]
  rw [L3_v96, L2_v77, L2_v74, L2_v1, L2_v3, L2_arg1, L2_v37, L2_v30]
  rw [L1_v58, L1_v55, L1_v1, L1_v3, L1_arg1, L1_v37, L1_v30]
  rw [B_v39, B_v30, B_v37, B_v1, B_v3, B_arg1, B_arg3]
  rw [A_arg3, A_arg4, A_arg2, A_v14, A_v1, A_v3, A_arg1]
  rfl

end Cert.ReferenceIdeal.RV

end
-- ==== Proof.RFrame.lean ====
/-
  The reference program writes none of its five argument buffers: after its whole operation list each holds what it
  held at the start.
-/
import proofs.«116709_j50457275794115_2_alg».proof.Proof.RefRun
import Idealize.ShloMosaic.PureOps.Ideal

noncomputable section

namespace Cert.ReferenceIdeal.RV

open Cert.ReferenceIdeal Cert.ReferenceIdeal.Gen Idealize.ShloMosaic Idealize.ShloMosaic.TcCoe Idealize.SL.Sem Idealize.ShloMosaic.StableHlo

variable (W : Valuation τ sig (Elt Ideal))

theorem kept_arg0 : StableHlo.after (Cert.ReferenceIdeal.RunP.ops (F := Ideal)) W (Proc.devRef .tc main_arg0) = W (Proc.devRef .tc main_arg0) := by
  after_results_simp
theorem kept_arg1 : StableHlo.after (Cert.ReferenceIdeal.RunP.ops (F := Ideal)) W (Proc.devRef .tc main_arg1) = W (Proc.devRef .tc main_arg1) := by
  after_results_simp
theorem kept_arg2 : StableHlo.after (Cert.ReferenceIdeal.RunP.ops (F := Ideal)) W (Proc.devRef .tc main_arg2) = W (Proc.devRef .tc main_arg2) := by
  after_results_simp
theorem kept_arg3 : StableHlo.after (Cert.ReferenceIdeal.RunP.ops (F := Ideal)) W (Proc.devRef .tc main_arg3) = W (Proc.devRef .tc main_arg3) := by
  after_results_simp
theorem kept_arg4 : StableHlo.after (Cert.ReferenceIdeal.RunP.ops (F := Ideal)) W (Proc.devRef .tc main_arg4) = W (Proc.devRef .tc main_arg4) := by
  after_results_simp

end Cert.ReferenceIdeal.RV

end
-- ==== Proof.LibSegPool.lean ====
/-
  The host's float scatter-add that sums the rows of an [N, C] array into the rows of an [S, C] array named by an
  [N, 1] array of row numbers (a segment sum), read at an index at the ideal instance, and the fact that four such
  sums laid side by side are the sum of the four arrays laid side by side.
-/
import Idealize.ShloMosaic.Lib.ValueIdx
import Idealize.ShloMosaic.PureOps.Ideal
import Idealize.ShloMosaic.Lib.Pipeline.Value

noncomputable section

open scoped BigOperators

namespace Cert.LibSegPool

open Idealize.ShloMosaic Idealize.ShloMosaic.ValueIdx

/-- The dimension numbers of a segment sum: operand `[S, C]`, scatter indices `[N, 1]`, updates `[N, C]`; the
    updates' axis 1 is the window axis, the operand's axis 0 is inserted and is the one the index names, the index
    vector lies on axis 1 of the scatter indices. Their conditions `wf` are decided on literal shapes. -/
abbrev poolDims (S N C : ℕ) (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

section
variable {S N C w : ℕ} (wf : ScatterDims.WF ⟨2, ![S, C]⟩ ⟨2, ![N, 1]⟩ ⟨2, ![N, C]⟩ [1] [0] [0] 1)

/-- On the operand's row axis an update's window starts at its row number `idx[n, 0]`, read as a signed integer. -/
theorem start0 (idx : IVec ⟨2, ![N, 1]⟩ w) (n : Fin N) (g : Fin C) :
    (poolDims S N C wf).start (ix2 n g) idx 0 = (idx (ix2 n (0 : Fin 1))).toInt := by
  unfold ScatterDims.start
  rw [dif_pos (show (0 : Fin 2) ∈ (poolDims S N C wf).scatterDimsToOperandDims from List.mem_singleton.mpr rfl)]
  congr 2
  funext b
  refine Fin.ext ?_
  match b with
  | ⟨0, _⟩ => rfl
  | ⟨1, _⟩ => rfl

/-- On the operand's column axis the window starts at `0`: the index names the row axis only. -/
theorem start1 (idx : IVec ⟨2, ![N, 1]⟩ w) (n : Fin N) (g : Fin C) :
    (poolDims S N C wf).start (ix2 n g) idx 1 = 0 := by
  unfold ScatterDims.start
  rw [dif_neg (show ¬ (1 : Fin 2) ∈ (poolDims S N C wf).scatterDimsToOperandDims from
    (show (1 : Fin 2) ∉ [(0 : Fin 2)] by decide))]

/-- The row axis is inserted: the window coordinate there is `0`. -/
theorem window0 (n : Fin N) (g : Fin C) : (poolDims S N C wf).window (ix2 n g) 0 = 0 := by
  unfold ScatterDims.window
  rw [dif_neg (show ¬ (0 : Fin 2) ∈ (poolDims S N C wf).sKept from
    (show (0 : Fin 2) ∉ (List.finRange 2).filter (fun a => a ∉ [(0 : Fin 2)]) by decide))]

/-- On the column axis the window coordinate is the update's column. -/
theorem window1 (n : Fin N) (g : Fin C) : (poolDims S N C wf).window (ix2 n g) 1 = g.val := by
  unfold ScatterDims.window
  rw [dif_pos (show (1 : Fin 2) ∈ (poolDims S N C wf).sKept from
    (show (1 : Fin 2) ∈ (List.finRange 2).filter (fun a => a ∉ [(0 : Fin 2)]) by decide))]
  rfl

/-- WHERE AN UPDATE LANDS: update element `(n, g)` lands on operand element `(s, f)` exactly when the row number
    `idx[n, 0]`, read as a signed integer and not clamped, is `s`, and the column is the same, `g = f`. A row number
    outside `[0, S)` lands nowhere: the update is dropped. -/
theorem resultIdx_pool (idx : IVec ⟨2, ![N, 1]⟩ w) (n : Fin N) (g : Fin C) (s : Fin S) (f : Fin C) :
    (poolDims S N C wf).resultIdx? (ix2 n g) idx = some (ix2 s f) ↔
      ((idx (ix2 n (0 : Fin 1))).toInt = (s.val : ℤ) ∧ g = f) := by
  have e0 : (poolDims S N C wf).start (ix2 n g) idx 0 + ((poolDims S N C wf).window (ix2 n g) 0 : ℕ)
      = (idx (ix2 n (0 : Fin 1))).toInt := by
    rw [start0, window0]; simp
  have e1 : (poolDims S N C wf).start (ix2 n g) idx 1 + ((poolDims S N C wf).window (ix2 n g) 1 : ℕ) = (g.val : ℤ) := by
    rw [start1, window1]; simp
  unfold ScatterDims.resultIdx?
  constructor
  · intro h
    split at h
    · next hall =>
      have h' := Option.some.inj h
      have h0 : ((poolDims S N C wf).start (ix2 n g) idx 0 + ((poolDims S N C wf).window (ix2 n g) 0 : ℕ)).toNat = s.val :=
        congrArg (fun i => (i 0).val) h'
      have h1 : ((poolDims S N C wf).start (ix2 n g) idx 1 + ((poolDims S N C wf).window (ix2 n g) 1 : ℕ)).toNat = f.val :=
        congrArg (fun i => (i 1).val) h'
      have p0 := (hall 0).1
      rw [e0] at h0 p0
      rw [e1] at h1
      refine ⟨by omega, Fin.ext (by omega)⟩
    · exact absurd h (by simp)
  · rintro ⟨hs, rfl⟩
    have hall : ∀ a : Fin 2, 0 ≤ (poolDims S N C wf).start (ix2 n g) idx a + ((poolDims S N C wf).window (ix2 n g) a : ℕ) ∧
        (poolDims S N C wf).start (ix2 n g) idx a + ((poolDims S N C wf).window (ix2 n g) a : ℕ)
          < ((⟨2, ![S, C]⟩ : Shape).size a : ℕ) := by
      intro a
      match a with
      | ⟨0, _⟩ =>
        have := s.isLt
        show 0 ≤ (poolDims S N C wf).start (ix2 n g) idx 0 + ((poolDims S N C wf).window (ix2 n g) 0 : ℕ) ∧
          (poolDims S N C wf).start (ix2 n g) idx 0 + ((poolDims S N C wf).window (ix2 n g) 0 : ℕ) < (S : ℤ)
        rw [e0, hs]; omega
      | ⟨1, _⟩ =>
        have := g.isLt
        show 0 ≤ (poolDims S N C wf).start (ix2 n g) idx 1 + ((poolDims S N C wf).window (ix2 n g) 1 : ℕ) ∧
          (poolDims S N C wf).start (ix2 n g) idx 1 + ((poolDims S N C wf).window (ix2 n g) 1 : ℕ) < (C : ℤ)
        rw [e1]; omega
    rw [dif_pos hall]
    congr 1
    funext a
    refine Fin.ext ?_
    match a with
    | ⟨0, _⟩ =>
      show ((poolDims S N C wf).start (ix2 n g) idx 0 + ((poolDims S N C wf).window (ix2 n g) 0 : ℕ)).toNat = s.val
      rw [e0, hs]; omega
    | ⟨1, _⟩ =>
      show ((poolDims S N C wf).start (ix2 n g) idx 1 + ((poolDims S N C wf).window (ix2 n g) 1 : ℕ)).toNat = g.val
      rw [e1]; omega

/-- THE SEGMENT SUM READ AT `(s, f)`: the operand there plus the sum, over the update rows `n` whose row number
    `idx[n, 0]` (signed, not clamped) is `s`, of the update's element in column `f`. -/
theorem scatterAdd_pool_apply (x : (⟨2, ![S, C]⟩ : Shape).Idx → EReal) (idx : IVec ⟨2, ![N, 1]⟩ w)
    (upd : (⟨2, ![N, C]⟩ : Shape).Idx → EReal) (s : Fin S) (f : Fin C) :
    Ideal.hostScatterAdd (poolDims S N C wf) x idx upd (ix2 s f)
      = x (ix2 s f) + ∑ n : Fin N, (if (idx (ix2 n (0 : Fin 1))).toInt = (s.val : ℤ) then upd (ix2 n f) else 0) := by
  unfold Ideal.hostScatterAdd
  congr 1
  rw [Finset.sum_filter, sum_idx2]
  refine Finset.sum_congr rfl (fun n _ => ?_)
  simp only [resultIdx_pool]
  by_cases h : (idx (ix2 n (0 : Fin 1))).toInt = (s.val : ℤ)
  · simp [h]
  · simp [h]

end

/-- FOUR `[R, C]` PIECES LAID SIDE BY SIDE, READ AT `(r, g)`: piece `g / C` at `(r, g % C)`. -/
theorem concat4_apply {α : Type} {R C C4 : ℕ}
    (hc : Shape.Concatenates [⟨2, ![R, C]⟩, ⟨2, ![R, C]⟩, ⟨2, ![R, C]⟩, ⟨2, ![R, C]⟩] ⟨2, ![R, C4]⟩ 1)
    (G : Fin 4 → (⟨2, ![R, C]⟩ : Shape).Idx → α) (r : Fin R) (g : Fin C4) (k : Fin 4) (f : Fin C)
    (hk : g.val / C = k.val) (hf : g.val % C = f.val) :
    concatenate ⟨2, ![R, C4]⟩ 1 [⟨⟨2, ![R, C]⟩, G 0⟩, ⟨⟨2, ![R, C]⟩, G 1⟩, ⟨⟨2, ![R, C]⟩, G 2⟩, ⟨⟨2, ![R, C]⟩, G 3⟩] hc (ix2 r g)
      = G k (ix2 r f) := by
  refine concatenate_ofFn_apply (t := ⟨2, ![R, C4]⟩) (s₁ := ⟨2, ![R, C]⟩) (1 : Fin 2) G hc rfl C rfl (ix2 r g) k hk (ix2 r f) hf.symm ?_
  intro b hb
  match b with
  | ⟨0, _⟩ => rfl
  | ⟨1, _⟩ => exact absurd rfl hb

/-- SEGMENT SUMS OF FOUR ARRAYS, SIDE BY SIDE: summing each of four `[N, C]` arrays into `[S, C]` by the same row
    numbers (each sum started from an array `zK`) and laying the four results side by side is summing the four arrays
    laid side by side into `[S, 4C]` (started from `zR`), when the two starting arrays hold one common value. Element
    `(s, g)` of either side is that value plus the sum, over the rows `n` whose number is `s`, of array `g / C` at
    `(n, g % C)`. -/
theorem pool_concat4 {S N C C4 w : ℕ} (hC4 : C4 = 4 * C)
    (wfK : ScatterDims.WF ⟨2, ![S, C]⟩ ⟨2, ![N, 1]⟩ ⟨2, ![N, C]⟩ [1] [0] [0] 1)
    (wfR : ScatterDims.WF ⟨2, ![S, C4]⟩ ⟨2, ![N, 1]⟩ ⟨2, ![N, C4]⟩ [1] [0] [0] 1)
    (hcK : Shape.Concatenates [⟨2, ![S, C]⟩, ⟨2, ![S, C]⟩, ⟨2, ![S, C]⟩, ⟨2, ![S, C]⟩] ⟨2, ![S, C4]⟩ 1)
    (hcR : Shape.Concatenates [⟨2, ![N, C]⟩, ⟨2, ![N, C]⟩, ⟨2, ![N, C]⟩, ⟨2, ![N, C]⟩] ⟨2, ![N, C4]⟩ 1)
    (zK : (⟨2, ![S, C]⟩ : Shape).Idx → EReal) (zR : (⟨2, ![S, C4]⟩ : Shape).Idx → EReal)
    (hz : ∀ i j, zR i = zK j)
    (idx : IVec ⟨2, ![N, 1]⟩ w) (h0 h1 h2 h3 : (⟨2, ![N, C]⟩ : Shape).Idx → EReal) :
    concatenate ⟨2, ![S, C4]⟩ 1
        [⟨⟨2, ![S, C]⟩, Ideal.hostScatterAdd (poolDims S N C wfK) zK idx h0⟩,
         ⟨⟨2, ![S, C]⟩, Ideal.hostScatterAdd (poolDims S N C wfK) zK idx h1⟩,
         ⟨⟨2, ![S, C]⟩, Ideal.hostScatterAdd (poolDims S N C wfK) zK idx h2⟩,
         ⟨⟨2, ![S, C]⟩, Ideal.hostScatterAdd (poolDims S N C wfK) zK idx h3⟩] hcK
      = Ideal.hostScatterAdd (poolDims S N C4 wfR) zR idx
          (concatenate ⟨2, ![N, C4]⟩ 1
            [⟨⟨2, ![N, C]⟩, h0⟩, ⟨⟨2, ![N, C]⟩, h1⟩, ⟨⟨2, ![N, C]⟩, h2⟩, ⟨⟨2, ![N, C]⟩, h3⟩] hcR) := by
  funext j
  obtain ⟨s, g, rfl⟩ : ∃ s g, j = ix2 s g := ⟨j 0, j 1, eq_ix2 j⟩
  -- the piece `k = g / C` and the column `f = g % C` inside it
  have hg : g.val < 4 * C := hC4 ▸ g.isLt
  have hC : 0 < C := by omega
  let k : Fin 4 := ⟨g.val / C, (Nat.div_lt_iff_lt_mul hC).mpr hg⟩
  let f : Fin C := ⟨g.val % C, Nat.mod_lt _ hC⟩
  let H : Fin 4 → (⟨2, ![N, C]⟩ : Shape).Idx → EReal := fun q =>
    match q with | ⟨0, _⟩ => h0 | ⟨1, _⟩ => h1 | ⟨2, _⟩ => h2 | ⟨3, _⟩ => h3
  have hL := concat4_apply hcK (fun q => Ideal.hostScatterAdd (poolDims S N C wfK) zK idx (H q)) s g k f rfl rfl
  have hR : ∀ n : Fin N, concatenate ⟨2, ![N, C4]⟩ 1
      [⟨⟨2, ![N, C]⟩, h0⟩, ⟨⟨2, ![N, C]⟩, h1⟩, ⟨⟨2, ![N, C]⟩, h2⟩, ⟨⟨2, ![N, C]⟩, h3⟩] hcR (ix2 n g) = H k (ix2 n f) :=
    fun n => concat4_apply hcR H n g k f rfl rfl
  refine hL.trans ?_
  rw [scatterAdd_pool_apply, scatterAdd_pool_apply, hz (ix2 s g) (ix2 s f)]
  congr 1
  refine Finset.sum_congr rfl (fun n _ => ?_)
  rw [hR n]

end Cert.LibSegPool

end
-- ==== Proof.LibGatherRows.lean ====
/-
  A gather of whole rows of a matrix, read at an index.

  `x[idx, :]` for a matrix `x : [N, C]` and an integer vector `idx` of `R` row numbers lowers to a gather whose
  start indices are `idx` viewed as `[R, 1]`, with the row axis collapsed, the column axis an offset axis of full
  width, and the index vector on the last axis.  Entry (o, h) of the result is `x` at row `idx[o, 0]` — read as a
  signed integer and clamped into [0, N − 1], as every gather start index is — and column `h`.
-/
import Idealize.ShloMosaic.Lib.ValueIdx

namespace Cert.LibGatherRows

open Idealize.ShloMosaic Idealize.ShloMosaic.ValueIdx

variable {α : Type}

/-- The dimension numbers of a whole-row gather for an operand `[N, C]`, start indices `[R, 1]` and a result `[R, C]`;
    their conditions `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(o, h)`: the operand at row `idx[o, 0]` (signed, clamped into `[0, N − 1]`), column `h`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (o : Fin R) (h : Fin C) :
    Host.gather (rowsDims N C R wf) x idx (ix2 o h)
      = x (ix2 ⟨min (idx (ix2 o (0 : Fin 1))).toInt.toNat (N - 1), by omega⟩ h) := by
  unfold Host.gather
  refine congrArg x (funext fun a => Fin.ext ?_)
  match a with
  | ⟨0, _⟩ =>
    show (rowsDims N C R wf).start (ix2 o h) idx 0 + (rowsDims N C R wf).batchCoord (ix2 o h) 0
        + (rowsDims N C R wf).offCoord (ix2 o h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 o h) ⟨List.idxOf (0 : Fin 2) (rowsDims N C R wf).startIndexMap,
        List.idxOf_lt_length_iff.2 (List.mem_singleton.mpr rfl)⟩ = ix2 o (0 : Fin 1) := by
      funext b; refine Fin.ext ?_
      match b with
      | ⟨0, _⟩ => rfl
      | ⟨1, _⟩ => rfl
    rw [hsi]
    rfl
  | ⟨1, _⟩ =>
    show (rowsDims N C R wf).start (ix2 o h) idx 1 + (rowsDims N C R wf).batchCoord (ix2 o h) 1
        + (rowsDims N C R wf).offCoord (ix2 o h) 1 = h.val
    rw [GatherDims.batchCoord_eq_zero _ _ _ List.not_mem_nil]
    have hs : (rowsDims N C R wf).start (ix2 o h) idx 1 = 0 := by
      unfold GatherDims.start
      rw [dif_neg (show ¬ (1 : Fin 2) ∈ ([0] : List (Fin 2)) from by decide)]
    rw [hs]
    have ho : (rowsDims N C R wf).offCoord (ix2 o h) 1 = h.val := by
      unfold GatherDims.offCoord
      rw [dif_pos ((GatherDims.mem_sKept (rowsDims N C R wf) 1).mpr
        ⟨show ¬ (1 : Fin 2) ∈ ([0] : List (Fin 2)) from by decide, List.not_mem_nil⟩)]
      rfl
    rw [ho]
    omega

end Cert.LibGatherRows
-- ==== Proof.LibGraphOps.lean ====
/-
  Host operations of a graph computation read at an index: the float scatter-add of a VECTOR of updates into a vector
  named by an [N, 1] array of positions (a count or a segment sum of scalars), the gather of single elements of a vector
  at an [R, 1] array of positions, a vector laid out as an [n, 1] column, the wrap of a negative position, and the
  signed value of a counter word.
-/
import Idealize.ShloMosaic.Lib.ValueIdx
import Idealize.ShloMosaic.PureOps.Ideal
import Idealize.ShloMosaic.Lib.Pipeline.Value

noncomputable section

open scoped BigOperators

namespace Cert.LibGraphOps

open Idealize.ShloMosaic Idealize.ShloMosaic.ValueIdx

/-- The dimension numbers of a scalar segment sum: operand `[S]`, scatter indices `[N, 1]`, updates `[N]`; no window
    axis, the operand's one axis is inserted and is the one the index names, the index vector lies on axis 1. -/
abbrev vecScatterDims (S N : ℕ) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

section
variable {S N w : ℕ} (wf : ScatterDims.WF ⟨1, ![S]⟩ ⟨2, ![N, 1]⟩ ⟨1, ![N]⟩ [] [0] [0] 1)

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis an update's window starts at its position `idx[n, 0]`, read as a signed integer. -/
theorem vstart0 (idx : IVec ⟨2, ![N, 1]⟩ w) (n : Fin N) :
    (vecScatterDims S N wf).start (ix1 n) idx 0 = (idx (ix2 n (0 : Fin 1))).toInt := by
  unfold ScatterDims.start
  rw [dif_pos (show (0 : Fin 1) ∈ (vecScatterDims S N wf).scatterDimsToOperandDims from List.mem_singleton.mpr rfl)]
  congr 2
  funext b
  refine Fin.ext ?_
  match b with
  | ⟨0, _⟩ => rfl
  | ⟨1, _⟩ => rfl

/-- The operand's one axis is inserted: the window coordinate there is `0`. -/
theorem vwindow0 (n : Fin N) : (vecScatterDims S N wf).window (ix1 n) 0 = 0 := by
  unfold ScatterDims.window
  rw [dif_neg (show ¬ (0 : Fin 1) ∈ (vecScatterDims S N wf).sKept from
    (show (0 : Fin 1) ∉ (List.finRange 1).filter (fun a => a ∉ [(0 : Fin 1)]) by decide))]

/-- WHERE AN UPDATE LANDS: update `n` lands on operand element `s` exactly when the position `idx[n, 0]`, read as a
    signed integer and not clamped, is `s`. A position outside `[0, S)` lands nowhere: the update is dropped. -/
theorem resultIdx_vec (idx : IVec ⟨2, ![N, 1]⟩ w) (n : Fin N) (s : Fin S) :
    (vecScatterDims S N wf).resultIdx? (ix1 n) idx = some (ix1 s) ↔
      (idx (ix2 n (0 : Fin 1))).toInt = (s.val : ℤ) := by
  have e0 : (vecScatterDims S N wf).start (ix1 n) idx 0 + ((vecScatterDims S N wf).window (ix1 n) 0 : ℕ)
      = (idx (ix2 n (0 : Fin 1))).toInt := by
    rw [vstart0, vwindow0]; simp
  unfold ScatterDims.resultIdx?
  constructor
  · intro h
    split at h
    · next hall =>
      have h' := Option.some.inj h
      have h0 : ((vecScatterDims S N wf).start (ix1 n) idx 0 + ((vecScatterDims S N wf).window (ix1 n) 0 : ℕ)).toNat = s.val :=
        congrArg (fun i => (i 0).val) h'
      have p0 := (hall 0).1
      rw [e0] at h0 p0
      omega
    · exact absurd h (by simp)
  · intro hs
    have hall : ∀ a : Fin 1, 0 ≤ (vecScatterDims S N wf).start (ix1 n) idx a + ((vecScatterDims S N wf).window (ix1 n) a : ℕ) ∧
        (vecScatterDims S N wf).start (ix1 n) idx a + ((vecScatterDims S N wf).window (ix1 n) a : ℕ)
          < ((⟨1, ![S]⟩ : Shape).size a : ℕ) := by
      intro a
      match a with
      | ⟨0, _⟩ =>
        have := s.isLt
        show 0 ≤ (vecScatterDims S N wf).start (ix1 n) idx 0 + ((vecScatterDims S N wf).window (ix1 n) 0 : ℕ) ∧
          (vecScatterDims S N wf).start (ix1 n) idx 0 + ((vecScatterDims S N wf).window (ix1 n) 0 : ℕ) < (S : ℤ)
        rw [e0, hs]; omega
    rw [dif_pos hall]
    congr 1
    funext a
    refine Fin.ext ?_
    match a with
    | ⟨0, _⟩ =>
      show ((vecScatterDims S N wf).start (ix1 n) idx 0 + ((vecScatterDims S N wf).window (ix1 n) 0 : ℕ)).toNat = s.val
      rw [e0, hs]; omega

end

/-- THE SCALAR SEGMENT SUM READ AT `s`: the operand there plus the sum, over the updates `n` whose position
    `idx[n, 0]` (signed, not clamped) is `s`, of the update. -/
theorem scatterAdd_vec_apply {S N w : ℕ} (wf : ScatterDims.WF ⟨1, ![S]⟩ ⟨2, ![N, 1]⟩ ⟨1, ![N]⟩ [] [0] [0] 1)
    (x : (⟨1, ![S]⟩ : Shape).Idx → EReal) (idx : IVec ⟨2, ![N, 1]⟩ w)
    (upd : (⟨1, ![N]⟩ : Shape).Idx → EReal) (s : Fin S) :
    Ideal.hostScatterAdd (vecScatterDims S N wf) x idx upd (ix1 s)
      = x (ix1 s) + ∑ n : Fin N, (if (idx (ix2 n (0 : Fin 1))).toInt = (s.val : ℤ) then upd (ix1 n) else 0) := by
  unfold Ideal.hostScatterAdd
  congr 1
  rw [Finset.sum_filter, sum_idx1]
  refine Finset.sum_congr rfl (fun n _ => ?_)
  simp only [resultIdx_vec]

/-- The dimension numbers of an element gather: operand `[N]`, start indices `[R, 1]`, result `[R]`. -/
abbrev vecGatherDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `o`: the operand at position `idx[o, 0]` (signed, clamped into `[0, N − 1]`). -/
theorem gather_vec_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (o : Fin R) :
    Host.gather (vecGatherDims N R wf) x idx (ix1 o)
      = x (ix1 ⟨min (idx (ix2 o (0 : Fin 1))).toInt.toNat (N - 1), by omega⟩) := by
  unfold Host.gather
  congr 1
  funext a
  obtain rfl : a = 0 := Subsingleton.elim _ _
  refine Fin.ext ?_
  show (vecGatherDims N R wf).start (ix1 o) idx 0 + (vecGatherDims N R wf).batchCoord (ix1 o) 0
      + (vecGatherDims N R wf).offCoord (ix1 o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 o) ⟨List.idxOf (0 : Fin 1) (vecGatherDims N R wf).startIndexMap,
      List.idxOf_lt_length_iff.2 (List.mem_singleton.mpr rfl)⟩ = ix2 o (0 : Fin 1) := by
    funext b; refine Fin.ext ?_
    match b with
    | ⟨0, _⟩ => rfl
    | ⟨1, _⟩ => rfl
  rw [hsi]
  rfl

/-- A vector laid out as an `[n, 1]` column, read at `(j, 0)`. -/
theorem bcast_col_apply {α : Type} {n : ℕ}
    (h : (⟨1, ![n]⟩ : Shape).BroadcastsInDim ⟨2, ![n, 1]⟩ (![0] : Fin 1 → Fin 2))
    (v : (⟨1, ![n]⟩ : Shape).Idx → α) (j : Fin n) (z : Fin 1) :
    broadcastInDim (⟨2, ![n, 1]⟩ : Shape) (![0] : Fin 1 → Fin 2) h v (ix2 j z) = v (ix1 j) := by
  refine broadcastInDim_apply _ h v (ix2 j z) (ix1 j) (fun a => ?_)
  match a with
  | ⟨0, _⟩ =>
    show j.val = if n = 1 then 0 else j.val
    by_cases hn : n = 1
    · rw [if_pos hn]; have := j.isLt; omega
    · rw [if_neg hn]

/-- THE WRAP OF A NEGATIVE POSITION (`select(v < 0, v + k, v)`, signed) leaves a non-negative word alone. -/
theorem wrap_nonneg (v k : BitVec 32) (h : 0 ≤ v.toInt) :
    Scalar.select (IntOp.cmpi .slt v 0#32) (IntOp.addi v k) v = v := by
  have hs : v.slt 0#32 = false := by
    rw [Bool.eq_false_iff]
    intro hlt
    rw [BitVec.slt_iff_toInt_lt] at hlt
    simp at hlt
    omega
  unfold Scalar.select IntOp.cmpi
  simp only [hs]
  rw [if_neg (by decide)]

/-- The counter word at position `l` below 2^31 is `l` as a signed integer. -/
theorem ofNat_toInt (l : ℕ) (h : l < 2147483648) : (BitVec.ofNat 32 l).toInt = (l : ℤ) := by
  unfold BitVec.toInt
  rw [BitVec.toNat_ofNat, Nat.mod_eq_of_lt (show l < 2 ^ 32 by omega)]
  rw [if_pos (by omega)]

end Cert.LibGraphOps

end
-- ==== Proof.LibLoraLaw.lean ====
/-
  The algebra of a linear layer with a low-rank update, on the extended reals.

  A layer maps a row v to  v·Wᵀ + b + (v·Aᵀ)·Bᵀ.  Folding the update into the weight, W' = W + B·A, the same row is
  v·W'ᵀ + b.  The two agree wherever every entry is a real number: the identity is distributivity and a change of
  the order of summation, which the extended reals only grant away from the infinities.  Real entries stay real
  through sums, products and tanh, so a stack of such layers can be compared layer by layer.
  Also here: a sum over G·K positions of a summand that vanishes outside the g-th group of K is the sum over that group.
-/
import Idealize.ShloMosaic.PureOps.Ideal.Laws

noncomputable section

open scoped BigOperators

namespace Cert.LibLoraLaw

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- tanh of anything is a real number (it is ±1 at the infinities). -/
theorem isReal_tanh (x : EReal) : IsReal (Idealize.ShloMosaic.Ideal.tanh x) := by
  induction x using EReal.rec with
  | bot => exact ⟨-1, by simp⟩
  | coe r => exact ⟨Real.tanh r, rfl⟩
  | top => exact ⟨1, by simp⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the image of a family of reals. -/
theorem exists_real_family {ι : Type*} (f : ι → EReal) (h : ∀ i, IsReal (f i)) : ∃ g : ι → ℝ, f = fun i => (g i : EReal) :=
  ⟨fun i => (h i).choose, funext fun i => (h i).choose_spec⟩

/-- One output of the layer with the update folded into the weight: Σ_k v_k (W_k + Σ_r B_r A_{r k}) + b. -/
def foldedOut {κ ρ : Type*} [Fintype κ] [Fintype ρ] (v W : κ → EReal) (b : EReal) (A : ρ → κ → EReal) (B : ρ → EReal) : EReal :=
  (∑ k, v k * (W k + ∑ r, B r * A r k)) + b

/-- One output of the layer as the reference spells it: Σ_k v_k W_k + b + Σ_r (Σ_k v_k A_{r k}) B_r. -/
def splitOut {κ ρ : Type*} [Fintype κ] [Fintype ρ] (v W : κ → EReal) (b : EReal) (A : ρ → κ → EReal) (B : ρ → EReal) : EReal :=
  (∑ k, v k * W k) + b + ∑ r, (∑ k, v k * A r k) * B r

/-- Folding the low-rank update into the weight does not change the layer's output, when the row, the weight and the
    two factors are real: v·(W + B A)ᵀ = v·Wᵀ + (v·Aᵀ)·Bᵀ by distributivity and exchanging the two sums. -/
theorem folded_eq_split {κ ρ : Type*} [Fintype κ] [Fintype ρ] (v W : κ → EReal) (b : EReal) (A : ρ → κ → EReal) (B : ρ → EReal)
    (hv : ∀ k, IsReal (v k)) (hW : ∀ k, IsReal (W k)) (hA : ∀ r k, IsReal (A r k)) (hB : ∀ r, IsReal (B r)) :
    foldedOut v W b A B = splitOut v W b A B := by
  obtain ⟨v', rfl⟩ := exists_real_family v hv
  obtain ⟨W', rfl⟩ := exists_real_family W hW
  obtain ⟨B', rfl⟩ := exists_real_family B hB
  obtain ⟨A', hA'⟩ : ∃ g : ρ → κ → ℝ, A = fun r k => (g r k : EReal) :=
    ⟨fun r k => (hA r k).choose, funext fun r => funext fun k => (hA r k).choose_spec⟩
  subst hA'
  unfold foldedOut splitOut
  have key : (∑ k, v' k * (W' k + ∑ r, B' r * A' r k)) = (∑ k, v' k * W' k) + ∑ r, (∑ k, v' k * A' r k) * B' r := by
    simp only [mul_add, Finset.sum_add_distrib, Finset.mul_sum, Finset.sum_mul]
    congr 1
    rw [Finset.sum_comm]
    exact Finset.sum_congr rfl fun r _ => Finset.sum_congr rfl fun k _ => by ring
  have e1 : (∑ k, (v' k : EReal) * ((W' k : EReal) + ∑ r, (B' r : EReal) * (A' r k : EReal)))
      = ((∑ k, v' k * (W' k + ∑ r, B' r * A' r k) : ℝ) : EReal) := by
    rw [coe_sum]
    refine Finset.sum_congr rfl fun k _ => ?_
    rw [EReal.coe_mul, EReal.coe_add, coe_sum]
    simp only [EReal.coe_mul]
  have e2 : (∑ k, (v' k : EReal) * (W' k : EReal)) + ∑ r, (∑ k, (v' k : EReal) * (A' r k : EReal)) * (B' r : EReal)
      = (((∑ k, v' k * W' k) + ∑ r, (∑ k, v' k * A' r k) * B' r : ℝ) : EReal) := by
    rw [EReal.coe_add, coe_sum, coe_sum]
    have a1 : ∀ k, ((v' k * W' k : ℝ) : EReal) = (v' k : EReal) * (W' k : EReal) := fun k => EReal.coe_mul _ _
    have a2 : ∀ r, (((∑ k, v' k * A' r k) * B' r : ℝ) : EReal) = (∑ k, (v' k : EReal) * (A' r k : EReal)) * (B' r : EReal) :=
      fun r => by
        rw [EReal.coe_mul, coe_sum]
        simp only [EReal.coe_mul]
    simp only [a1, a2]
  rw [e1, key, ← e2, add_right_comm]

/-- The folded layer's output is real when everything that enters it is. -/
theorem isReal_foldedOut {κ ρ : Type*} [Fintype κ] [Fintype ρ] (v W : κ → EReal) (b : EReal) (A : ρ → κ → EReal) (B : ρ → EReal)
    (hv : ∀ k, IsReal (v k)) (hW : ∀ k, IsReal (W k)) (hb : IsReal b) (hA : ∀ r k, IsReal (A r k)) (hB : ∀ r, IsReal (B r)) :
    IsReal (foldedOut v W b A B) :=
  (isReal_sum _ _ fun k _ => (hv k).mul ((hW k).add (isReal_sum _ _ fun r _ => (hB r).mul (hA r k)))).add hb

/-- A sum over N positions of a summand that vanishes outside the g-th group of K consecutive positions is the sum
    over that group. -/
theorem sum_group {N K : ℕ} (hK : 0 < K) (g : ℕ) (hg : K * g + K ≤ N) (φ : Fin N → EReal) :
    (∑ l : Fin N, if l.val / K = g then φ l else 0)
      = ∑ k : Fin K, φ ⟨K * g + k.val, by have := k.isLt; omega⟩ := by
  rw [← Finset.sum_filter]
  symm
  refine Finset.sum_bij (fun (k : Fin K) _ => (⟨K * g + k.val, by have := k.isLt; omega⟩ : Fin N)) ?_ ?_ ?_ ?_
  · intro k _
    simp only [Finset.mem_filter, Finset.mem_univ, true_and]
    rw [Nat.mul_add_div hK, Nat.div_eq_of_lt k.isLt, Nat.add_zero]
  · intro k₁ _ k₂ _ h
    have := congrArg Fin.val h
    simp only at this
    exact Fin.ext (by omega)
  · intro l hl
    simp only [Finset.mem_filter, Finset.mem_univ, true_and] at hl
    refine ⟨⟨l.val % K, Nat.mod_lt _ hK⟩, Finset.mem_univ _, Fin.ext ?_⟩
    simp only
    rw [← hl]
    exact Nat.div_add_mod l.val K
  · intro k _
    rfl

end Cert.LibLoraLaw

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.LibMeanLaw.lean ====
/-
  The algebra that joins the two arrangements of the second layer.

  Write  P n  for "edge n ends at the node in question",  h n k  for the hidden row of edge n's source node,  w  for a
  column of the neighbour weight and  M  for the clamped in-degree.  One program projects every node's hidden row first
  and averages the projections,  (Σ_{P n} Σ_k h n k · w k) · (1 / M);  the other averages the hidden rows and projects
  the mean,  Σ_k ((Σ_{P n} h n k) / M) · w k.  On real numbers the two are one number: the projection is linear and
  the mean is a sum scaled by a constant.  On the extended reals distributivity needs every entry real, so the
  statement carries that hypothesis, and the module shows that the quantities entering it are real.
-/
import Idealize.ShloMosaic.PureOps.Ideal.Laws
import proofs.«116709_j50457275794115_2_alg».proof.Proof.LibLoraLaw
import proofs.«116709_j50457275794115_2_alg».proof.Proof.LibRecipDiv

noncomputable section

open scoped BigOperators

namespace Cert.LibMeanLaw

open Idealize.ShloMosaic Cert.LibLoraLaw

/-- A conditional sum of reals, started from zero, is real. -/
theorem isReal_condSum {ι : Type*} [Fintype ι] (P : ι → Prop) [DecidablePred P] (y : ι → EReal) (hy : ∀ n, IsReal (y n)) :
    IsReal (0 + ∑ n, if P n then y n else 0) := by
  refine isReal_zero.add (isReal_sum _ _ fun n _ => ?_)
  split
  · exact hy n
  · exact isReal_zero

/-- The maximum of two reals is real. -/
theorem IsReal.max {x y : EReal} (hx : IsReal x) (hy : IsReal y) : IsReal (max x y) := by
  rcases le_total x y with h | h
  · rw [max_eq_right h]; exact hy
  · rw [max_eq_left h]; exact hx

/-- The reciprocal of a nonzero real is real. -/
theorem isReal_recip {M : EReal} (hM : IsReal M) (hM0 : M ≠ 0) : IsReal (Ideal.div 1 M) := by
  obtain ⟨m, rfl⟩ := hM
  unfold Ideal.div
  rw [if_neg hM0, one_mul]
  exact ⟨m⁻¹, (EReal.coe_inv m).symm⟩

/-- A quotient by a nonzero real is the product with the reciprocal. -/
theorem div_eq_mul_recip (x M : EReal) (hM0 : M ≠ 0) : Ideal.div x M = x * Ideal.div 1 M :=
  (Cert.LibRecipDiv.mul_one_div x M hM0).symm

/-- THE LAW: averaging the projections is projecting the average, on real entries. -/
theorem mean_of_proj {ι κ : Type*} [Fintype ι] [Fintype κ] (P : ι → Prop) [DecidablePred P] (h : ι → κ → EReal) (w : κ → EReal)
    (M : EReal) (hh : ∀ n k, IsReal (h n k)) (hw : ∀ k, IsReal (w k)) (hM : IsReal M) (hM0 : M ≠ 0) :
    (0 + ∑ n, if P n then ∑ k, h n k * w k else 0) * Ideal.div 1 M
      = ∑ k, Ideal.div (0 + ∑ n, if P n then h n k else 0) M * w k := by
  obtain ⟨ρ, hρ⟩ := isReal_recip hM hM0
  have e : ∀ x, Ideal.div x M = x * (ρ : EReal) := fun x => (div_eq_mul_recip x M hM0).trans (by rw [hρ])
  rw [hρ]
  simp only [e]
  obtain ⟨w', rfl⟩ := exists_real_family w hw
  obtain ⟨h', hh'⟩ : ∃ g : ι → κ → ℝ, h = fun n k => (g n k : EReal) :=
    ⟨fun n k => (hh n k).choose, funext fun n => funext fun k => (hh n k).choose_spec⟩
  subst hh'
  have eL : (0 + ∑ n, if P n then ∑ k, (h' n k : EReal) * (w' k : EReal) else 0) * (ρ : EReal)
      = (((∑ n, if P n then ∑ k, h' n k * w' k else 0) * ρ : ℝ) : EReal) := by
    rw [EReal.coe_mul, coe_sum, zero_add]
    congr 1
    refine Finset.sum_congr rfl fun n _ => ?_
    split
    · rw [coe_sum]; simp only [EReal.coe_mul]
    · rfl
  have eR : ∀ k, (0 + ∑ n, if P n then (h' n k : EReal) else 0) * (ρ : EReal) * (w' k : EReal)
      = ((((∑ n, if P n then h' n k else 0) * ρ) * w' k : ℝ) : EReal) := by
    intro k
    rw [EReal.coe_mul, EReal.coe_mul, coe_sum, zero_add]
    congr 2
    refine Finset.sum_congr rfl fun n _ => ?_
    split <;> rfl
  rw [eL]
  simp only [eR]
  rw [← coe_sum]
  congr 1
  simp only [Finset.sum_mul]
  rw [Finset.sum_comm]
  refine Finset.sum_congr rfl fun n _ => ?_
  split
  · rw [Finset.sum_mul]
    refine Finset.sum_congr rfl fun k _ => ?_
    ring
  · simp

end Cert.LibMeanLaw

end
-- ==== Proof.LibGcnLaw.lean ====
/-
  A graph-convolution layer on the extended reals.

  Per edge e with source row x_e, type row t_e, weight w_e and degree normalisation n_e, one arrangement sums
  (x_e * w_e + t_e) * n_e into the edge's target node; the other sums x_e * (w_e * n_e) and t_e * n_e separately
  and adds the two segment sums.  On real numbers the two agree by distributivity and by splitting a finite sum
  of sums.  The extended reals grant distributivity only away from the infinities, so the law carries the
  hypothesis that every entry is real, and the rest of the module shows that realness survives the operations
  that feed the law: a segment sum into zeros, a gather of rows, a gather of elements, pointwise products and
  sums, and the degree normalisation  where(d > 0, 1 / sqrt(where(d > 0, d, 1)), 0),  which is real whatever d is.
-/
import Idealize.ShloMosaic.Lib.ValueIdx
import Idealize.ShloMosaic.PureOps.Ideal
import Idealize.ShloMosaic.PureOps.Ideal.Laws
import proofs.«116709_j50457275794115_2_alg».proof.Proof.LibSegPool
import proofs.«116709_j50457275794115_2_alg».proof.Proof.LibGatherRows
import proofs.«116709_j50457275794115_2_alg».proof.Proof.LibGraphOps
import proofs.«116709_j50457275794115_2_alg».proof.Proof.LibLoraLaw
import proofs.«116709_j50457275794115_2_alg».proof.Proof.LibMeanLaw

noncomputable section

open scoped BigOperators

namespace Cert.GcnLaw

open Idealize.ShloMosaic Idealize.ShloMosaic.ValueIdx Cert.LibLoraLaw

/-- every entry of an array is a real number -/
def AllReal {s : Shape} (x : s.Idx → EReal) : Prop := ∀ i, IsReal (x i)

variable {N E C : ℕ}

/-- The segment sum read at `(s, f)`: the operand there plus the sum of the updates of column `f` over the edges
    whose row number is `s`. -/
theorem scatterAdd_apply (wfS : ScatterDims.WF ⟨2, ![N, C]⟩ ⟨2, ![E, 1]⟩ ⟨2, ![E, C]⟩ [1] [0] [0] 1)
    (z : FVec Ideal ⟨2, ![N, C]⟩ .f32) (idx : IVec ⟨2, ![E, 1]⟩ 32)
    (u : FVec Ideal ⟨2, ![E, C]⟩ .f32) (s : Fin N) (f : Fin C) :
    Host.scatterAdd (F := Ideal) (φ := .f32) (Cert.LibSegPool.poolDims N E C wfS) z idx u (ix2 s f)
      = z (ix2 s f) + ∑ n : Fin E, (if (idx (ix2 n (0 : Fin 1))).toInt = (s.val : ℤ) then u (ix2 n f) else 0) :=
  Cert.LibSegPool.scatterAdd_pool_apply wfS z idx u s f

/-- A segment sum of real updates into an all-zero operand is real: each entry is zero plus a finite sum of reals. -/
theorem pool_real (wfS : ScatterDims.WF ⟨2, ![N, C]⟩ ⟨2, ![E, 1]⟩ ⟨2, ![E, C]⟩ [1] [0] [0] 1)
    (z : FVec Ideal ⟨2, ![N, C]⟩ .f32) (hz : ∀ i, z i = 0) (idx : IVec ⟨2, ![E, 1]⟩ 32)
    (u : FVec Ideal ⟨2, ![E, C]⟩ .f32) (hu : AllReal u) :
    AllReal (Host.scatterAdd (F := Ideal) (φ := .f32) (Cert.LibSegPool.poolDims N E C wfS) z idx u) := by
  intro i
  obtain ⟨s, f, rfl⟩ : ∃ s f, i = ix2 s f := ⟨i 0, i 1, eq_ix2 i⟩
  rw [scatterAdd_apply, hz]
  exact Cert.LibMeanLaw.isReal_condSum _ _ (fun n => hu (ix2 n f))

/-- A gather of whole rows of a real matrix is real: every entry of the result is an entry of the matrix. -/
theorem rows_real {M : ℕ} (hM : 0 < M) (wfG : GatherDims.WF ⟨2, ![M, C]⟩ ⟨2, ![E, 1]⟩ ⟨2, ![E, C]⟩ [1] [0] [] [0] [] 1 ![1, C])
    (x : FVec Ideal ⟨2, ![M, C]⟩ .f32) (hx : AllReal x) (idx : IVec ⟨2, ![E, 1]⟩ 32) :
    AllReal (Host.gather (Cert.LibGatherRows.rowsDims M C E wfG) x idx) := by
  intro i
  obtain ⟨o, h, rfl⟩ : ∃ o h, i = ix2 o h := ⟨i 0, i 1, eq_ix2 i⟩
  rw [Cert.LibGatherRows.gather_rows_apply hM]
  exact hx _

/-- A gather of single elements of a real vector is real. -/
theorem vec_real (hN : 0 < N) (wfV : GatherDims.WF ⟨1, ![N]⟩ ⟨2, ![E, 1]⟩ ⟨1, ![E]⟩ [] [0] [] [0] [] 1 ![1])
    (x : FVec Ideal ⟨1, ![N]⟩ .f32) (hx : AllReal x) (idx : IVec ⟨2, ![E, 1]⟩ 32) :
    AllReal (Host.gather (Cert.LibGraphOps.vecGatherDims N E wfV) x idx) := by
  intro i
  obtain ⟨o, rfl⟩ : ∃ o, i = ix1 o := ⟨i 0, eq_ix1 i⟩
  rw [Cert.LibGraphOps.gather_vec_apply hN]
  exact hx _

/-- The reciprocal square root of a positive extended real is real: it is 0 at +∞ and (√r)⁻¹ at a positive real r. -/
theorem isReal_rsqrt_pos (x : EReal) (hx : 0 < x) : IsReal (Ideal.rsqrt x) := by
  induction x using EReal.rec with
  | bot => exact absurd hx (not_lt_bot)
  | coe r =>
    have hr : 0 < r := by exact_mod_cast hx
    rw [Ideal.rsqrt_coe, if_neg (not_lt.mpr hr.le), if_neg hr.ne']
    exact isReal_coe _
  | top => exact ⟨0, by simp⟩

/-- The degree normalisation where(d > 0, rsqrt(where(d > 0, d, 1)), 0) is real at every entry, whatever d is:
    where d > 0 the inner selection is d itself, positive, and its reciprocal square root is real;
    elsewhere the outer selection is 0. -/
theorem dinv_real {s : Shape} (d z o z' : FVec Ideal s .f32) (hz : ∀ i, z i = 0) (ho : ∀ i, o i = 1) (hz' : ∀ i, z' i = 0) :
    AllReal (select (cmpf .ogt d z) (Host.rsqrt (F := Ideal) (select (cmpf .ogt d z) d o)) z') := by
  intro i
  have hc : cmpf .ogt d z i = BitVec.ofBool (decide (0 < d i)) := by
    rw [cmpf_apply, hz]; rfl
  rw [select_apply]
  show IsReal (Scalar.select (cmpf .ogt d z i) (Ideal.rsqrt (Scalar.select (cmpf .ogt d z i) (d i) (o i))) (z' i))
  rw [hc]
  by_cases h : 0 < d i
  · rw [decide_eq_true h]
    show IsReal (Scalar.select 1#1 (Ideal.rsqrt (Scalar.select 1#1 (d i) (o i))) (z' i))
    rw [select_one, select_one]
    exact isReal_rsqrt_pos _ h
  · rw [decide_eq_false h]
    show IsReal (Scalar.select 0#1 (Ideal.rsqrt (Scalar.select 0#1 (d i) (o i))) (z' i))
    rw [select_zero, hz']
    exact isReal_zero

/-- A pointwise product of real arrays is real. -/
theorem mulf_real {s : Shape} (a b : FVec Ideal s .f32) (ha : AllReal a) (hb : AllReal b) : AllReal (mulf a b) := by
  intro i
  rw [mulf_apply]
  exact (ha i).mul (hb i)

/-- A pointwise sum of real arrays is real. -/
theorem addf_real {s : Shape} (a b : FVec Ideal s .f32) (ha : AllReal a) (hb : AllReal b) : AllReal (addf a b) := by
  intro i
  rw [addf_apply]
  exact (ha i).add (hb i)

/-- Distributivity for one edge, on real numbers: (a c + b) d = a (c d) + b d. -/
theorem edge_law (a b c d : ℝ) :
    ((a : EReal) * (c : EReal) + (b : EReal)) * (d : EReal) = (a : EReal) * ((c : EReal) * (d : EReal)) + (b : EReal) * (d : EReal) := by
  have h : (a * c + b) * d = a * (c * d) + b * d := by ring
  have := congrArg (fun r : ℝ => (r : EReal)) h
  simpa only [EReal.coe_mul, EReal.coe_add] using this

/-- THE LAYER LAW: the segment sum of (x w + t) n is the segment sum of x (w n) plus the segment sum of t n, when
    every entry is real. At a node and a column both sides are sums over the edges that end at the node; per edge
    the summands agree by distributivity, and the sum of the sums is the sum of the summands' sums. -/
theorem layer_law (wfS : ScatterDims.WF ⟨2, ![N, C]⟩ ⟨2, ![E, 1]⟩ ⟨2, ![E, C]⟩ [1] [0] [0] 1)
    (z : FVec Ideal ⟨2, ![N, C]⟩ .f32) (hz : ∀ i, z i = 0) (idx : IVec ⟨2, ![E, 1]⟩ 32)
    (x t w2 n2 y : FVec Ideal ⟨2, ![E, C]⟩ .f32) (w nrm : Fin E → EReal)
    (hx : AllReal x) (ht : AllReal t) (hw : ∀ e, IsReal (w e)) (hn : ∀ e, IsReal (nrm e))
    (hw2 : ∀ (e : Fin E) (f : Fin C), w2 (ix2 e f) = w e) (hn2 : ∀ (e : Fin E) (f : Fin C), n2 (ix2 e f) = nrm e)
    (hy : ∀ (e : Fin E) (f : Fin C), y (ix2 e f) = x (ix2 e f) * (w e * nrm e)) :
    Host.scatterAdd (F := Ideal) (φ := .f32) (Cert.LibSegPool.poolDims N E C wfS) z idx (mulf (addf (mulf x w2) t) n2)
      = addf (Host.scatterAdd (F := Ideal) (φ := .f32) (Cert.LibSegPool.poolDims N E C wfS) z idx y)
             (Host.scatterAdd (F := Ideal) (φ := .f32) (Cert.LibSegPool.poolDims N E C wfS) z idx (mulf t n2)) := by
  funext j
  obtain ⟨s, f, rfl⟩ : ∃ s f, j = ix2 s f := ⟨j 0, j 1, eq_ix2 j⟩
  rw [addf_apply, scatterAdd_apply, scatterAdd_apply, scatterAdd_apply, hz, zero_add, zero_add, zero_add,
    ← Finset.sum_add_distrib]
  refine Finset.sum_congr rfl (fun e _ => ?_)
  by_cases hl : (idx (ix2 e (0 : Fin 1))).toInt = (s.val : ℤ)
  · rw [if_pos hl, if_pos hl, if_pos hl, mulf_apply, addf_apply, mulf_apply, mulf_apply, hw2, hn2, hy]
    obtain ⟨a, ha⟩ := hx (ix2 e f)
    obtain ⟨b, hb⟩ := ht (ix2 e f)
    obtain ⟨c, hc⟩ := hw e
    obtain ⟨d, hd⟩ := hn e
    rw [ha, hb, hc, hd]
    exact edge_law a b c d
  · rw [if_neg hl, if_neg hl, if_neg hl, add_zero]

end Cert.GcnLaw

end
-- ==== Proof.Bridge.lean ====
/-
  The general facts about a graph-convolution step, read at the program's own arrays.

  The program's "add rows at their destinations", "read rows at their sources" and "read an element per edge" are the
  segment sum, the row gather and the element gather of the general module, at 200000 nodes, 1250000 edges and 64
  features; its all-zero array is zero at every entry, and a number per edge laid out as a column and repeated over
  the 64 features reads, at edge e and any feature, that edge's number.  With these readings the realness lemmas and
  the law of one step — (h[row] w + t) nrm added at the destinations is h[row] (w nrm) added there plus t nrm added
  there, on real entries — hold for the program's own terms.
-/
import proofs.«116709_j50457275794115_2_alg».proof.Proof.KTerms
import proofs.«116709_j50457275794115_2_alg».proof.Proof.LibGcnLaw
import proofs.«116709_j50457275794115_2_alg».proof.Proof.LibColumn
import proofs.«116709_j50457275794115_2_alg».proof.Proof.LibGraphOps
import Idealize.ShloMosaic.Lib.Pipeline.Value
import Idealize.ShloMosaic.Lib.IdealHost

noncomputable section

namespace Cert.KernelIdeal.KV

open Cert.KernelIdeal Cert.KernelIdeal.Gen Idealize.ShloMosaic Idealize.ShloMosaic.ValueIdx Cert.GcnLaw Cert.LibLoraLaw

/-- The all-zero node array is zero at every entry: the 32-bit word 0 is the number 0. -/
theorem zv_zero (i : S200000x64.Idx) : zv i = 0 := Ideal.ofBits_zero_f32

/-- The all-zero array over the nodes is zero at every entry. -/
theorem z1_zero (i : S200000.Idx) : z1 i = 0 := Ideal.ofBits_zero_f32

/-- The all-one array over the nodes is one at every entry. -/
theorem o1_one (i : S200000.Idx) : o1 i = 1 := Ideal.ofBits_one_f32

/-- A number per edge laid out as a column and repeated over the 64 features reads, at edge `e` and feature `f`,
    the number of edge `e`. -/
theorem bcE_bc1_apply (n : V1) (e : Fin 1250000) (f : Fin 64) : bcE (bc1 n) (ix2 e f) = n (ix1 e) := by
  have h1 : bcE (bc1 n) (ix2 e f) = bc1 n (ix2 e (0 : Fin 1)) := by
    unfold bcE
    refine broadcastInDim_apply _ _ (bc1 n) (ix2 e f) (ix2 e (0 : Fin 1)) (fun a => ?_)
    match a with
    | ⟨0, _⟩ =>
      show e.val = if (1250000 : ℕ) = 1 then 0 else e.val
      rw [if_neg (by omega)]
    | ⟨1, _⟩ => rfl
  rw [h1]
  unfold bc1
  exact Cert.LibGraphOps.bcast_col_apply _ n e 0

/-- The product of two numbers per edge, viewed as a column, reads at edge `e` the product of the two numbers. -/
theorem acol_apply (a1 n : V1) (e : Fin 1250000) :
    (shapeCast S1250000x1 (mulf a1 n) shapeCasts_S1250000_S1250000x1 : FVec Ideal S1250000x1 .f32) (ix2 e (0 : Fin 1))
      = a1 (ix1 e) * n (ix1 e) := by
  rw [Cert.LibColumn.shapeCast_a_a1_apply, mulf_apply]

/-- The degree factor is real at every node. -/
theorem DINV_real (rv : IE) : AllReal (DINV rv) := by
  unfold DINV
  exact dinv_real (DEG rv) z1 o1 z1 z1_zero o1_one z1_zero

/-- The per-edge normalisation built from a real degree factor is real. -/
theorem NRM_real (d : FVec Ideal S200000 .f32) (hd : AllReal d) (rv cv : IE) : AllReal (NRM d rv cv) := by
  unfold NRM
  exact mulf_real _ _
    (vec_real (N := 200000) (E := 1250000) (by omega) Facts₀.gather_S200000_S1250000x1_S1250000_n_0_n_n_0_1_1_wf d hd (rowIdx rv))
    (vec_real (N := 200000) (E := 1250000) (by omega) Facts₀.gather_S200000_S1250000x1_S1250000_n_0_n_n_0_1_1_wf d hd (rowIdx cv))

/-- The per-edge type rows of real type rows are real. -/
theorem TE_real (a4 : FVec Ideal S3x64 .f32) (ha4 : AllReal a4) (ty : IE) : AllReal (TE a4 ty) := by
  unfold TE
  exact rows_real (E := 1250000) (C := 64) (M := 3) (by omega)
    Facts₀.gather_S3x64_S1250000x1_S1250000x64_1_0_n_n_0_1_164_wf a4 ha4 (colIdx (wrapBy 3#32 ty))

/-- The rows of a real node array read at the edges' sources are real. -/
theorem GA_real (rv : IE) (h : VN) (hh : AllReal h) : AllReal (GA rv h) := by
  unfold GA
  exact rows_real (E := 1250000) (C := 64) (M := 200000) (by omega)
    Facts₀.gather_S200000x64_S1250000x1_S1250000x64_1_0_n_n_0_1_164_wf h hh (rowIdx rv)

/-- Real edge rows added at their destinations, from zero, give a real node array. -/
theorem SC_real (cv : IE) (u : VE) (hu : AllReal u) : AllReal (SC cv u) := by
  unfold SC
  exact pool_real (N := 200000) (E := 1250000) (C := 64)
    Facts₀.scatter_S200000x64_S1250000x1_S1250000x64_1_0_0_1_wf zv zv_zero (colIdx cv) u hu

/-- A real number per edge, laid out over the 64 features, is a real array. -/
theorem bcE_bc1_real (n : V1) (hn : AllReal n) : AllReal (bcE (bc1 n)) := by
  intro i
  obtain ⟨e, f, rfl⟩ : ∃ (e : Fin 1250000) (f : Fin 64), i = ix2 e f := ⟨i 0, i 1, eq_ix2 i⟩
  rw [bcE_bc1_apply]
  exact hn _

/-- ONE STEP, THE TWO ARRANGEMENTS: (h[row]·w + t)·nrm added at the destinations is h[row]·(w·nrm) added there plus
    t·nrm added there, on real entries. -/
theorem step_eq (rv cv : IE) (a1 nrm : V1) (t : VE) (h : VN) (y : VE)
    (ha1 : AllReal a1) (hn : AllReal nrm) (ht : AllReal t) (hh : AllReal h)
    (hy : ∀ (e : Fin 1250000) (f : Fin 64), y (ix2 e f) = GA rv h (ix2 e f) * (a1 (ix1 e) * nrm (ix1 e))) :
    stepR rv cv (bcE (bc1 a1)) t (bcE (bc1 nrm)) h = addf (SC cv y) (SC cv (mulf t (bcE (bc1 nrm)))) := by
  unfold stepR SC
  exact layer_law (N := 200000) (E := 1250000) (C := 64)
    Facts₀.scatter_S200000x64_S1250000x1_S1250000x64_1_0_0_1_wf zv zv_zero (colIdx cv)
    (GA rv h) t (bcE (bc1 a1)) (bcE (bc1 nrm)) y (fun e => a1 (ix1 e)) (fun e => nrm (ix1 e))
    (GA_real rv h hh) ht (fun e => ha1 (ix1 e)) (fun e => hn (ix1 e))
    (fun e f => bcE_bc1_apply a1 e f) (fun e f => bcE_bc1_apply nrm e f) hy

/-- Both segment sums of the second arrangement, and their sum, are real. -/
theorem step_real (rv cv : IE) (a1 nrm : V1) (t : VE) (h : VN) (y : VE)
    (ha1 : AllReal a1) (hn : AllReal nrm) (ht : AllReal t) (hh : AllReal h)
    (hy : ∀ (e : Fin 1250000) (f : Fin 64), y (ix2 e f) = GA rv h (ix2 e f) * (a1 (ix1 e) * nrm (ix1 e))) :
    AllReal (addf (SC cv y) (SC cv (mulf t (bcE (bc1 nrm))))) := by
  have hyr : AllReal y := by
    intro i
    obtain ⟨e, f, rfl⟩ : ∃ (e : Fin 1250000) (f : Fin 64), i = ix2 e f := ⟨i 0, i 1, eq_ix2 i⟩
    rw [hy]
    exact (GA_real rv h hh _).mul ((ha1 _).mul (hn _))
  exact addf_real _ _ (SC_real cv y hyr) (SC_real cv _ (mulf_real t _ ht (bcE_bc1_real nrm hn)))

end Cert.KernelIdeal.KV

end
-- ==== Proof.Algebra.lean ====
/-
  The three propagation steps, in the kernel's arrangement and in the reference's, agree on real inputs.

  The reference computes one step as (h[row] · w + t) · nrm added at the destinations; the kernel computes it as
  h[row] · (w · nrm) added at the destinations plus (t · nrm added at the destinations), the second summand computed
  once. On real entries the two are equal (distributivity), and each step keeps every entry real, so the equality
  passes through the three steps and through the final average.
-/
import proofs.«116709_j50457275794115_2_alg».proof.Proof.KTerms
import proofs.«116709_j50457275794115_2_alg».proof.Proof.Bridge
import proofs.«116709_j50457275794115_2_alg».proof.Proof.KRegion
import proofs.«116709_j50457275794115_2_alg».proof.Proof.KStep

noncomputable section

namespace Cert.KernelIdeal.KV

open Cert.KernelIdeal Cert.KernelIdeal.Gen Idealize.ShloMosaic Idealize.ShloMosaic.ValueIdx Cert.GcnLaw Cert.LibLoraLaw
open Cert.KernelIdeal.RegionValue (scaleRows scaleRows_apply)

/-- The gathered rows scaled by the column w · nrm read, at edge e and feature f, the gathered entry times w[e] · nrm[e]. -/
theorem scaled_apply (rv : IE) (a1 n : V1) (h : VN) (e : Fin 1250000) (f : Fin 64) :
    scaleRows (GA rv h) (shapeCast S1250000x1 (mulf a1 n) shapeCasts_S1250000_S1250000x1 : FVec Ideal S1250000x1 .f32) (ix2 e f)
      = GA rv h (ix2 e f) * (a1 (ix1 e) * n (ix1 e)) := by
  rw [scaleRows_apply, acol_apply]

/-- One step: on real entries the kernel's arrangement is the reference's. -/
theorem stepK_eq_stepR (rv cv : IE) (a1 n : V1) (t : VE) (h : VN)
    (ha1 : AllReal a1) (hn : AllReal n) (ht : AllReal t) (hh : AllReal h) :
    stepK rv cv (shapeCast S1250000x1 (mulf a1 n) shapeCasts_S1250000_S1250000x1) (SC cv (mulf t (bcE (bc1 n)))) h
      = stepR rv cv (bcE (bc1 a1)) t (bcE (bc1 n)) h :=
  (step_eq rv cv a1 n t h _ ha1 hn ht hh (scaled_apply rv a1 n h)).symm

/-- One step of the kernel's arrangement keeps every entry real. -/
theorem stepK_real (rv cv : IE) (a1 n : V1) (t : VE) (h : VN)
    (ha1 : AllReal a1) (hn : AllReal n) (ht : AllReal t) (hh : AllReal h) :
    AllReal (stepK rv cv (shapeCast S1250000x1 (mulf a1 n) shapeCasts_S1250000_S1250000x1) (SC cv (mulf t (bcE (bc1 n)))) h) :=
  step_real rv cv a1 n t h _ ha1 hn ht hh (scaled_apply rv a1 n h)

/-- Two step functions that agree wherever a property holds, the first preserving it, give the same result of three
    steps from an array with the property. -/
theorem out3_congr (K R : VN → VN) (P : VN → Prop) (a3 : VN) (h0 : P a3)
    (e : ∀ h, P h → K h = R h) (r : ∀ h, P h → P (K h)) : out3 K a3 = out3 R a3 := by
  have e1 : K a3 = R a3 := e a3 h0
  have r1 : P (K a3) := r a3 h0
  have e2 : K (K a3) = R (R a3) := (e _ r1).trans (congrArg R e1)
  have r2 : P (K (K a3)) := r _ r1
  have e3 : K (K (K a3)) = R (R (R a3)) := (e _ r2).trans (congrArg R e2)
  unfold out3
  rw [e3, e2, e1]

/-- THE THREE STEPS AGREE: with the coefficient column A = w · nrm and the type term Cc = (t · nrm added at the
    destinations), every step of the kernel's arrangement is the reference's step, because every array that enters is
    real and stays real. -/
theorem out3_eq (rv cv ty : IE) (a1 : V1) (a3 : VN) (a4 : FVec Ideal S3x64 .f32)
    (h1 : AllReal a1) (h3 : AllReal a3) (h4 : AllReal a4) :
    out3 (stepK rv cv (shapeCast S1250000x1 (mulf a1 (NRM (DINV rv) rv cv)) shapeCasts_S1250000_S1250000x1)
            (SC cv (mulf (TE a4 ty) (bcE (bc1 (NRM (DINV rv) rv cv)))))) a3
      = out3 (stepR rv cv (bcE (bc1 a1)) (TE a4 ty) (bcE (bc1 (NRM (DINV rv) rv cv)))) a3 := by
  have hN : AllReal (NRM (DINV rv) rv cv) := NRM_real (DINV rv) (DINV_real rv) rv cv
  have hT : AllReal (TE a4 ty) := TE_real a4 h4 ty
  exact out3_congr _ _ (fun h => AllReal h) a3 h3
    (fun h hh => stepK_eq_stepR rv cv a1 _ _ h h1 hN hT hh)
    (fun h hh => stepK_real rv cv a1 _ _ h h1 hN hT hh)

end Cert.KernelIdeal.KV

end
-- ==== Proof.Final.lean ====
/-
  The two programs' results as functions of the five arguments, and their equality on real float arguments.
-/
import proofs.«116709_j50457275794115_2_alg».proof.Proof.Algebra

noncomputable section

namespace Cert.KernelIdeal.KV

open Cert.KernelIdeal Cert.KernelIdeal.Gen Idealize.ShloMosaic Cert.GcnLaw

/-- The kernel's result: three steps in its arrangement — the coefficient column w · nrm, the type term added once. -/
def kerOut (a0 : IVec S2x1250000 32) (a1 : V1) (a2 : IE) (a3 : VN) (a4 : FVec Ideal S3x64 .f32) : VN :=
  out3 (stepK (ROW a0) (COL a0)
      (shapeCast S1250000x1 (mulf a1 (NRM (DINV (ROW a0)) (ROW a0) (COL a0))) shapeCasts_S1250000_S1250000x1)
      (SC (COL a0) (mulf (TE a4 a2) (bcE (bc1 (NRM (DINV (ROW a0)) (ROW a0) (COL a0))))))) a3

/-- The reference's result: three steps in its arrangement. -/
def refOut (a0 : IVec S2x1250000 32) (a1 : V1) (a2 : IE) (a3 : VN) (a4 : FVec Ideal S3x64 .f32) : VN :=
  out3 (stepR (ROW a0) (COL a0) (bcE (bc1 a1)) (TE a4 a2) (bcE (bc1 (NRM (DINV (ROW a0)) (ROW a0) (COL a0))))) a3

/-- On real edge weights, node features and type rows the two results are one array. -/
theorem kerOut_eq_refOut (a0 : IVec S2x1250000 32) (a1 : V1) (a2 : IE) (a3 : VN) (a4 : FVec Ideal S3x64 .f32)
    (h1 : AllReal a1) (h3 : AllReal a3) (h4 : AllReal a4) : kerOut a0 a1 a2 a3 a4 = refOut a0 a1 a2 a3 a4 :=
  out3_eq (ROW a0) (COL a0) a2 a1 a3 a4 h1 h3 h4

end Cert.KernelIdeal.KV

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.PreReal.lean ====
/-
  The precondition `finite_inputs`, decoded at the ideal instance.

  The precondition is the conjunction of three reductions `all (|x| < +∞)`, one for each float argument. On the extended
  reals |x| = max x (−x) is +∞ at both infinities, so each conjunct says that every entry of its array is a real number.
-/
import proofs.«116709_j50457275794115_2_alg».proof.Defs
import proofs.«116709_j50457275794115_2_alg».proof.Proof.Gen.Pre_finite_inputs
import proofs.«116709_j50457275794115_2_alg».proof.Proof.LibRealEntry
import proofs.«116709_j50457275794115_2_alg».proof.Proof.LibLoraLaw
import Idealize.ShloMosaic.Lib.ReduceAll
import Idealize.ShloMosaic.Lib.ValueIdx

noncomputable section

namespace Cert.PreReal

open Idealize.ShloMosaic Idealize.ShloMosaic.ValueIdx Cert.LibLoraLaw

/-- The scalar shape has one index. -/
theorem subsingleton_scalarIdx : Subsingleton (⟨0, ![]⟩ : Shape).Idx := ⟨fun a b => funext fun d => d.elim0⟩

/-- One conjunct, over any shape: if the reduction by `and`, over all axes, of the comparisons |a i| < +∞ is 1, then every
    entry of `a` is a real number. -/
theorem real_of_all_abs_lt {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (e : Host.reduce IntOp.andi
        (cmpf .olt (Host.absf a) (broadcastInDim s ![] hb (constant (F := Ideal) ⟨0, ![]⟩ .f32 0x7F800000#32)))
        (constantI ⟨0, ![]⟩ 1 1#1) hr hu j = 1#1) (i : s.Idx) : IsReal (a i) := by
  haveI := subsingleton_scalarIdx
  have hi := Host.reduce_andi_all _ _ hr hu j e i
  exact Cert.LibRealEntry.real_of_abs_lt (a i) hi

/-- Under the precondition every entry of the edge weights (argument 1), the node embeddings (argument 3) and the type
    embeddings (argument 4) is a real number. -/
theorem real_of_fn [Cert.Pre_finite_inputs.Facts]
    (a0 : IVec Cert.Pre_finite_inputs.S2x1250000 32) (a1 : FVec Ideal Cert.Pre_finite_inputs.S1250000 .f32)
    (a2 : IVec Cert.Pre_finite_inputs.S1250000 32) (a3 : FVec Ideal Cert.Pre_finite_inputs.S200000x64 .f32)
    (a4 : FVec Ideal Cert.Pre_finite_inputs.S3x64 .f32)
    (h : Cert.Pre_finite_inputs.fn (F := Ideal) a0 a1 a2 a3 a4 = fun _ => 1#1) :
    (∀ i, IsReal (a1 i)) ∧ (∀ i, IsReal (a3 i)) ∧ (∀ i, IsReal (a4 i)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_all_abs_lt a1 _ _ _ _ h1 i, fun i => real_of_all_abs_lt a3 _ _ _ _ h2 i,
    fun i => real_of_all_abs_lt a4 _ _ _ _ h3 i⟩

/-- The same, read off the kernel program's precondition on a memory. -/
theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) :=
  real_of_fn _ _ _ _ _ (hpre c)

end Cert.PreReal

end
-- ==== Proof.lean ====
/-
  The certificate of the graph-convolution kernel against its reference.

  Both programs compute, from an edge list (source and destination node of every edge), per-edge weights w, per-edge
  type indices, node features h₀ and three type rows, the array  ¼·h₀ + ¼·h₁ + ¼·h₂ + ¼·h₃  where one propagation
  step h ↦ h' sends every node's features along its outgoing edges and adds up what arrives:
      reference:  h'[s] = Σ_{e ends at s} (h[row e] · w e + t e) · nrm e
      kernel:     h'[s] = Σ_{e ends at s} h[row e] · (w e · nrm e)  +  Σ_{e ends at s} t e · nrm e,
  nrm e the product of the degree factors of the edge's two nodes and t e the edge's type row.  The kernel's second
  sum does not depend on h and is computed once; its first sum's products are what its three pallas_call regions
  compute, row by row.  The two arrangements are one array by distributivity and the additivity of a sum over edges,
  which the extended reals grant where every entry is a real number: the float inputs are real by the precondition,
  the degree factor is real whatever the degrees are (the reciprocal square root of a positive extended real is real,
  and it is replaced by zero elsewhere), and gathers, products and sums over edges of real entries are real, so the
  features stay real step after step.

  The kernel's frames are the generated ones; its result array is read off the generated run of its segments (a copy
  of the generated frame theorem whose post also names the result buffer), each region's output array by covering it
  with the grid points' blocks.  The reference's run is the library's run of its operation list (a copy of the
  generated run module with the statement the library proves), read stretch by stretch.
-/
import proofs.«116709_j50457275794115_2_alg».proof.Defs
import proofs.«116709_j50457275794115_2_alg».proof.Proof.Gen.Kernel
import proofs.«116709_j50457275794115_2_alg».proof.Proof.Gen.Kernel.Skeleton
import proofs.«116709_j50457275794115_2_alg».proof.Proof.Gen.Kernel.Launch
import proofs.«116709_j50457275794115_2_alg».proof.Proof.Gen.Kernel.Points
import proofs.«116709_j50457275794115_2_alg».proof.Proof.Gen.Kernel.Frame
import proofs.«116709_j50457275794115_2_alg».proof.Proof.Gen.KernelIdeal
import proofs.«116709_j50457275794115_2_alg».proof.Proof.Gen.KernelIdeal.Skeleton
import proofs.«116709_j50457275794115_2_alg».proof.Proof.Gen.KernelIdeal.Launch
import proofs.«116709_j50457275794115_2_alg».proof.Proof.Gen.KernelIdeal.Points
import proofs.«116709_j50457275794115_2_alg».proof.Proof.Gen.KernelIdeal.Frame
import proofs.«116709_j50457275794115_2_alg».proof.Proof.Gen.ReferenceIdeal
import proofs.«116709_j50457275794115_2_alg».proof.Proof.Gen.Pre_finite_inputs
import proofs.«116709_j50457275794115_2_alg».proof.Proof.KRun
import proofs.«116709_j50457275794115_2_alg».proof.Proof.KValue
import proofs.«116709_j50457275794115_2_alg».proof.Proof.RStages
import proofs.«116709_j50457275794115_2_alg».proof.Proof.RFrame
import proofs.«116709_j50457275794115_2_alg».proof.Proof.Final
import proofs.«116709_j50457275794115_2_alg».proof.Proof.PreReal
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: no operation of its list writes an argument buffer. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RV.kept_arg0 _),
       (h c Cert.ReferenceIdeal.main_arg1).trans (Cert.ReferenceIdeal.RV.kept_arg1 _),
       (h c Cert.ReferenceIdeal.main_arg2).trans (Cert.ReferenceIdeal.RV.kept_arg2 _),
       (h c Cert.ReferenceIdeal.main_arg3).trans (Cert.ReferenceIdeal.RV.kept_arg3 _),
       (h c Cert.ReferenceIdeal.main_arg4).trans (Cert.ReferenceIdeal.RV.kept_arg4 _)⟩)
    (Cert.ReferenceIdeal.RunP.run_after (F := Ideal) m ρ)

/-- The ideal pass rewrote nothing: the idealization is the program's own text read at the ideal instance. -/
theorem preserves : Cert.preserves_Kernel_KernelIdeal := trivial

open Cert.KernelIdeal.KV in
/-- From memories agreeing on the arguments both idealized programs end with the same array: the kernel's three steps
    in its arrangement, the reference's three steps in its own, equal because the float arguments are real. -/
theorem algebraic : Cert.algebraic_KernelIdeal_ReferenceIdeal := by
  intro m ρ m' ρ' hpre hagree
  refine ⟨fun c => kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KV.kernel_value m ρ c), (h c).2⟩)
      (Cert.KernelIdeal.GenP.run_named m ρ)
  · refine (θ_run Cert.ReferenceIdeal.defs _ _).mono (fun r h c =>
        ⟨?_,
         (h c Cert.ReferenceIdeal.main_arg0).trans (Cert.ReferenceIdeal.RV.kept_arg0 _),
         (h c Cert.ReferenceIdeal.main_arg1).trans (Cert.ReferenceIdeal.RV.kept_arg1 _),
         (h c Cert.ReferenceIdeal.main_arg2).trans (Cert.ReferenceIdeal.RV.kept_arg2 _),
         (h c Cert.ReferenceIdeal.main_arg3).trans (Cert.ReferenceIdeal.RV.kept_arg3 _),
         (h c Cert.ReferenceIdeal.main_arg4).trans (Cert.ReferenceIdeal.RV.kept_arg4 _)⟩)
      (Cert.ReferenceIdeal.RunP.run_after (F := Ideal) m' ρ')
    obtain ⟨e0, e1, e2, e3, e4⟩ := hagree c
    obtain ⟨h1, h3, h4⟩ := Cert.PreReal.real_of_pre m hpre c
    have href : r.2.mem ((c.tc : Thread Cert.ReferenceIdeal.nD Cert.ReferenceIdeal.τ).loc Cert.ReferenceIdeal.main_v96)
        = refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) :=
      (h c Cert.ReferenceIdeal.main_v96).trans (Cert.ReferenceIdeal.RV.ref_value (StableHlo.launchContents m' c))
    rw [href, e0, e1, e2, e3, e4]
    exact (kerOut_eq_refOut _ _ _ _ _ h1 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
